-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S512x256 : Shape := ⟨2, ![512, 256]⟩
abbrev S512 : Shape := ⟨1, ![512]⟩
abbrev S512x512 : Shape := ⟨2, ![512, 512]⟩
abbrev S4096 : Shape := ⟨1, ![4096]⟩
abbrev S4096x1 : Shape := ⟨2, ![4096, 1]⟩

abbrev nBuf : Space → Nat
  | .hbm => 49
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S8192x256, .bf16⟩
  | .hbm, ⟨14, _⟩ => ⟨S8192, .f32⟩
  | .hbm, ⟨15, _⟩ => ⟨S4096x256, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x256, .f32⟩
  | .hbm, ⟨34, _⟩ => ⟨S4096x256, .f32⟩
  | .hbm, ⟨35, _⟩ => ⟨S4096x256, .f32⟩
  | .hbm, ⟨36, _⟩ => ⟨S_, .f32⟩
  | .hbm, ⟨37, _⟩ => ⟨S4096, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512, .f32⟩
  | .local _ .vmem, ⟨5, _⟩ => ⟨S512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_7 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  inb_S512_S512_0 : ∀ a, (![0] : Fin 1 → Nat) a + S512.size a ≤ S512.size a
  h_S512 : 0 < S512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  iota_S512x512_d0_w32 : S512x512.Iotas .tc 32 [0]
  iota_S512x512_d1_w32 : S512x512.Iotas .tc 32 [1]
  shapeCasts_S512_S512 : S512.ShapeCasts S512
  reduces_S512x512_S512 : S512x512.Reduces [1] S512
  reducesTo_S4096x256_S4096_d1 : S4096x256.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096_S4096_S8192_d0 : Shape.Concatenates [S4096, S4096] S8192 0
  bcast_S_S8192 : S_.BroadcastsInDim S8192 (![] : Fin 0 → Fin S8192.rank)
  reducesTo_S8192_S_d0 : S8192.ReducesTo [0] S_
  dot_S512x256_S512x256_S512x512_1_1_0_0_n_n_wf : DotDims.WF S512x256 S512x256 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .bf16 = 32 ∨ (Rect.block (s := S8192x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .bf16 = 32 ∨ (Rect.block (s := S8192x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S8192.size a
  hwx0_2 : ∀ i : grid0.Coords, EltTy.bits .f32 = 32 ∨ (Rect.block (s := S8192) S512.size (cc0_transform_2 i) (hinb0_2 i)).WholeWords (EltTy.packing .f32)

variable [Facts₀]

def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf

abbrev win0_0 : Pipeline.Window sig grid0 :=
  Pipeline.Window.ofSpec (Memref.whole main_v9) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S4096 : Shape := ⟨1, ![4096]⟩
abbrev S4096x1 : Shape := ⟨2, ![4096, 1]⟩

abbrev nBuf : Space → Nat
  | .hbm => 66
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S256x8192, .f32⟩
  | .hbm, ⟨14, _⟩ => ⟨S8192x8192, .f32⟩
  | .hbm, ⟨15, _⟩ => ⟨S8192x8192, .i32⟩
  | .hbm, ⟨16, _⟩ => ⟨S8192x8192, .i32⟩
  | .hbm, ⟨17, _⟩ => ⟨S_, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192, .f32⟩
  | .hbm, ⟨31, _⟩ => ⟨S4096x256, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x256, .f32⟩
  | .hbm, ⟨40, _⟩ => ⟨S4096x256, .f32⟩
  | .hbm, ⟨41, _⟩ => ⟨S4096x256, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x256, .f32⟩
  | .hbm, ⟨50, _⟩ => ⟨S4096x256, .f32⟩
  | .hbm, ⟨51, _⟩ => ⟨S4096x256, .f32⟩
  | .hbm, ⟨52, _⟩ => ⟨S_, .f32⟩
  | .hbm, ⟨53, _⟩ => ⟨S4096, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S8192, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  reducesTo_S4096x256_S4096_d1 : S4096x256.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096_S4096_S8192_d0 : Shape.Concatenates [S4096, S4096] S8192 0
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.BAcc.lean ====
/-
  (The same statements and proofs as for the idealized program, for the program as printed: the two texts differ
  only in the name of their namespace, and nothing below depends on the float instance.)

  The running row sums the tiled evaluation keeps, as a recursion on the grid point, for any float instance.

  The grid is 16 × 16, walked row tile by row tile: point `n` is row tile `n / 16`, column tile `n % 16`.
  At each point the body adds to a block of 512 running sums the masked row sums of one 512 × 512 tile
  (`k0_pay2`: the tile's Gram entries doubled, exponentiated, the global diagonal replaced by zero, summed
  along the columns). At the first column tile of a row tile (`n % 16 = 0`) the running sums are first reset
  to zero (`k0_pay1`); at every other point they are what the point before left. `accG b0 b1 n` is the block
  of running sums after point `n`, given the row-tile operand `b0 n` and the column-tile operand `b1 n` the
  body reads there.
-/
import proofs.«126791_j28630251995607_1_alg».proof.Proof.Gen.Kernel.Skeleton

noncomputable section

namespace Cert.Kernel.Hand

open Idealize.ShloMosaic Cert.Kernel Cert.Kernel.Gen

variable {F : FTy → Type} [FloatOps F]

/-- The block of running sums after point `n`. -/
def accG (b0 b1 : ℕ → Vec F S512x256 .bf16) : (n : ℕ) → n < grid0.N → Vec F S512 .f32
  | 0, h => k0_pay2 (grid0.coords ⟨0, h⟩) (b0 0) (b1 0) (k0_pay1 (F := F))
  | n + 1, h =>
    if (n + 1) % 16 = 0 then k0_pay2 (grid0.coords ⟨n + 1, h⟩) (b0 (n + 1)) (b1 (n + 1)) (k0_pay1 (F := F))
    else k0_pay2 (grid0.coords ⟨n + 1, h⟩) (b0 (n + 1)) (b1 (n + 1)) (accG b0 b1 n (Nat.lt_of_succ_lt h))

/-- At the first column tile of a row tile the sums restart from zero. -/
theorem accG_reset (b0 b1 : ℕ → Vec F S512x256 .bf16) (n : ℕ) (h : n < grid0.N) (h0 : n % 16 = 0) :
    accG b0 b1 n h = k0_pay2 (grid0.coords ⟨n, h⟩) (b0 n) (b1 n) (k0_pay1 (F := F)) := by
  cases n with
  | zero => rfl
  | succ n => exact (if_pos h0).trans rfl

/-- At any other point they continue from the point before. -/
theorem accG_step (b0 b1 : ℕ → Vec F S512x256 .bf16) (n : ℕ) (h : n < grid0.N) (h0 : ¬ n % 16 = 0) :
    accG b0 b1 n h = k0_pay2 (grid0.coords ⟨n, h⟩) (b0 n) (b1 n)
      (accG b0 b1 (n - 1) (Nat.lt_of_le_of_lt (Nat.sub_le _ _) h)) := by
  cases n with
  | zero => exact absurd (Nat.zero_mod _) h0
  | succ n => exact (if_neg h0).trans rfl

end Cert.Kernel.Hand

end
-- ==== Proof.BData.lean ====
/-
  (The same statements and proofs as for the idealized program, for the program as printed: the two texts differ
  only in the name of their namespace, and nothing below depends on the float instance.)

  The proof data of the tiled evaluation's pipeline, for any float instance.

  The pipeline has three windows over a 16 × 16 grid walked row tile by row tile (point `t` is row tile
  `t / 16`, column tile `t % 16`): window 0 reads the row tile's 512 rows of the normalised matrix,
  window 1 the column tile's 512 rows of THE SAME matrix, window 2 is the block of 512 running row sums of
  the row tile, written back when the row tile's last column tile is done. The two input windows look at
  one array, so each holds half of the reading share of it.

  What each staging buffer holds after the body at point `t`: the inputs still hold the blocks they were
  given; the output holds the running sums `accG` (reset at the first column tile of a row tile, otherwise
  the point before's plus this tile's masked row sums). The invariant carried between points is only the
  scoped buffers that are nobody's staging buffer; the core owes nothing.
-/
import proofs.«126791_j28630251995607_1_alg».proof.Proof.BAcc
import proofs.«126791_j28630251995607_1_alg».proof.Proof.Gen.Kernel.Launch
import proofs.«126791_j28630251995607_1_alg».proof.Proof.Gen.Kernel.Points
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at launch, as a valuation; -/
abbrev V₀ (c : Dev nD) : Valuation τ sig (Elt F) := fun b => (s₀ m ρ).mem ((c : Dev nD), b)
/-- and when the region is entered: the twelve operations that stack and normalise the rows have run. -/
abbrev V (c : Dev nD) (b : Ref sig .tc) : Buf (Elt F) ((c : Thread nD τ).loc b) := StableHlo.after hostOps0 (V₀ m ρ c) b

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

theorem N_pos : 0 < cfg0.N := by decide

/-- The row-tile operand at point `n` (points past the grid wrap around; no statement looks there). -/
def b0 (c : Dev nD) (n : ℕ) : Vec F S512x256 .bf16 := iblk m ρ c 0 ⟨n % cfg0.N, Nat.mod_lt n N_pos⟩
/-- The column-tile operand at point `n`. -/
def b1 (c : Dev nD) (n : ℕ) : Vec F S512x256 .bf16 := iblk m ρ c 1 ⟨n % cfg0.N, Nat.mod_lt n N_pos⟩

theorem b0_congr (c : Dev nD) (s t : Fin cfg0.N) (h : s = t) :
    (show Vec F S512x256 .bf16 from iblk m ρ c 0 s) = (show Vec F S512x256 .bf16 from iblk m ρ c 0 t) := by subst h; rfl
theorem b1_congr (c : Dev nD) (s t : Fin cfg0.N) (h : s = t) :
    (show Vec F S512x256 .bf16 from iblk m ρ c 1 s) = (show Vec F S512x256 .bf16 from iblk m ρ c 1 t) := by subst h; rfl

theorem b0_eq (c : Dev nD) (t : Fin cfg0.N) : b0 m ρ c t.val = iblk m ρ c 0 t :=
  b0_congr m ρ c _ t (Fin.ext (Nat.mod_eq_of_lt t.isLt))
theorem b1_eq (c : Dev nD) (t : Fin cfg0.N) : b1 m ρ c t.val = iblk m ρ c 1 t :=
  b1_congr m ρ c _ t (Fin.ext (Nat.mod_eq_of_lt t.isLt))

/-- The running sums after point `t`. -/
def acc (c : Dev nD) (t : Fin cfg0.N) : Vec F S512 .f32 := accG (b0 m ρ c) (b1 m ρ c) t.val t.isLt

/-! ## The body's one branch -/

/-- The body resets the running sums when the column coordinate is zero: the printed scalar chain. -/
abbrev cond (i : grid0.Coords) : Prop :=
  (Scalar.cmpi .ne (Scalar.extui (Scalar.cmpi .eq (BitVec.ofNat 32 (i 1).val) 0#32)) 0#32) = 1#1
/-- Over the grid that is: at the first of every sixteen points. -/
theorem hcond : ∀ t : Fin cfg0.N, cond (grid0.coords t) ↔ t.val % 16 = 0 :=
  (by decide +kernel : ∀ t : Fin grid0.N, cond (grid0.coords t) ↔ t.val % 16 = 0)

/-! ## The proof data -/

/-- The proof data on core `c`. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => acc m ρ c t
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m ρ 0 c).A w = V m ρ c (Pipeline.arrRef spec0 w) := by
  dsimp only [dats]

theorem after_0 (c : Dev nD) (t : Fin cfg0.N) : (dats m ρ 0 c).after 0 t = iblk m ρ c 0 t := by dsimp only [dats]
theorem after_1 (c : Dev nD) (t : Fin cfg0.N) : (dats m ρ 0 c).after 1 t = iblk m ρ c 1 t := by dsimp only [dats]
theorem after_2 (c : Dev nD) (t : Fin cfg0.N) : (dats m ρ 0 c).after 2 t = acc m ρ c t := by dsimp only [dats]

/-- Each input's current staging buffer holds its block at every point, fetched there or not: where it is
    not fetched the block index has not moved. -/
theorem before_0 (c : Dev nD) (t : Fin cfg0.N) (d) : (dats m ρ 0 c).before 0 t d = iblk m ρ c 0 t :=
  ((dats m ρ 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m ρ 0 c).before 1 t d = iblk m ρ c 1 t :=
  ((dats m ρ 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- Within a row tile the output's staging buffer still holds what the point before left: the block is
    written back only after the row tile's last column tile. -/
theorem before_2_step (c : Dev nD) (t : Fin cfg0.N) (h0 : ¬ t.val % 16 = 0) (d) :
    (dats m ρ 0 c).before 2 t d = acc m ρ c ⟨t.val - 1, Nat.lt_of_le_of_lt (Nat.sub_le _ _) t.isLt⟩ := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    (fun _ => rfl) (fun _ _ => rfl)]
  dsimp only [dats]

end Cert.Kernel.Hand

end
-- ==== Proof.BBody.lean ====
/-
  (The same statements and proofs as for the idealized program, for the program as printed: the two texts differ
  only in the name of their namespace, and nothing below depends on the float instance.)

  The body of the tiled evaluation, run once on arbitrary whole staging buffers in each of its two cases,
  and from that the body obligation at every grid point, for any float instance.

  The body first looks at the column coordinate. If it is zero it overwrites the 512 running sums with zeros.
  Then, in both cases, it reads the row-tile operand, the column-tile operand and the running sums, and stores
  back the running sums plus the tile's masked row sums (`k0_pay2`). So on buffers holding `x0`, `x1` and anything
  the first case leaves `k0_pay2 i x0 x1 0`; on buffers holding `x0`, `x1`, `xo` the second leaves
  `k0_pay2 i x0 x1 xo`; the operands are left as they were. Every store writes the whole buffer, so what the
  buffer reads afterwards is the last store's value, and a load after a store reads that store's value.

  At grid point `t` the operands' buffers hold the row tile's and the column tile's blocks of the normalised
  matrix (fetched there, or left from the point before when the block index has not moved); the running sums'
  buffer holds what the point before left unless `t` starts a row tile. The case is decided by `t % 16 = 0`.
-/
import proofs.«126791_j28630251995607_1_alg».proof.Proof.BData
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on any whole staging buffers -/

set_option maxHeartbeats 1000000 in
/-- First column tile of a row tile: the running sums restart from zero. -/
theorem runA (c : Dev nD) (i : grid0.Coords)
    (a2 : Memref sig .tc .vmem S512x256 .bf16) (h2 : a2.IsWhole) (a3 : Memref sig .tc .vmem S512x256 .bf16) (h3 : a3.IsWhole)
    (a4 : Memref sig .tc .vmem S512 .f32) (h4 : a4.IsWhole) (hc : cond i) (x0 x1 : Vec F S512x256 .bf16)
    (E : Set ℕ) (K : PUnit → sProp 𝕄) :
    iprop(owns (c : Thread nD τ) a2 fullShare x0 ∗ owns (c : Thread nD τ) a3 fullShare x1 ∗ (∃ X, owns (c : Thread nD τ) a4 fullShare X)
        ∗ (iprop(owns (c : Thread nD τ) a2 fullShare x0 ∗ owns (c : Thread nD τ) a3 fullShare x1
            ∗ owns (c : Thread nD τ) a4 fullShare (k0_pay2 i x0 x1 (k0_pay1 (F := F)))) -∗ K ⟨⟩))
      ⊢ wp frame (wpE (defs₀ (F := F)) Variants.none c none) E (cc0__denom_kernel i a2 h2 a3 h3 a4 h4) K := by
  simp only [cc0__denom_kernel_eq_skeleton]; unfold cc0__denom_kernel_skel
  unfold owns
  iintro ⟨⟨%f0, %hf0, H0⟩, ⟨%f1, %hf1, H1⟩, ⟨%X, %f2, %hf2, H2⟩, Hk⟩
  obtain rfl := h2.eq_unread hf0; obtain rfl := h3.eq_unread hf1
  sl_exec (disch := first | exact hc)
  sl_step
  iapply Hk
  isplitl [H0]
  · iexists _; isplitr; · ipureintro; exact h2.read_unread _
    iexact H0
  isplitl [H1]
  · iexists _; isplitr; · ipureintro; exact h3.read_unread _
    iexact H1
  iexists _; isplitr; swap; · iexact H2
  ipureintro
  have hz1 : (![0] : Fin S512.rank → ℕ) = fun _ => 0 := by funext a; fin_cases a; rfl
  have hz2 : (![0, 0] : Fin S512x256.rank → ℕ) = fun _ => 0 := by funext a; fin_cases a <;> rfl
  rw [View.read_writes_eq_canon _ _ _ (fun y => ⟨_, List.mem_cons_self, View.mem_set_unit_zero hz1 inb_S512_S512_0 y⟩)]
  rw [View.canon_cons_unit_zero hz1]
  sl_unfold_run_names
  simp only [View.readAt_eq_ld, h2.read_unread, h3.read_unread, View.ld_unit_zero (S := S512x256) hz2]
  rw [View.readCov_unit_zero _ hz1]

set_option maxHeartbeats 1000000 in
/-- Any other point: the running sums continue from what the buffer holds. -/
theorem runB (c : Dev nD) (i : grid0.Coords)
    (a2 : Memref sig .tc .vmem S512x256 .bf16) (h2 : a2.IsWhole) (a3 : Memref sig .tc .vmem S512x256 .bf16) (h3 : a3.IsWhole)
    (a4 : Memref sig .tc .vmem S512 .f32) (h4 : a4.IsWhole) (hc : ¬ cond i) (x0 x1 : Vec F S512x256 .bf16) (xo : Vec F S512 .f32)
    (E : Set ℕ) (K : PUnit → sProp 𝕄) :
    iprop(owns (c : Thread nD τ) a2 fullShare x0 ∗ owns (c : Thread nD τ) a3 fullShare x1 ∗ owns (c : Thread nD τ) a4 fullShare xo
        ∗ (iprop(owns (c : Thread nD τ) a2 fullShare x0 ∗ owns (c : Thread nD τ) a3 fullShare x1
            ∗ owns (c : Thread nD τ) a4 fullShare (k0_pay2 i x0 x1 xo)) -∗ K ⟨⟩))
      ⊢ wp frame (wpE (defs₀ (F := F)) Variants.none c none) E (cc0__denom_kernel i a2 h2 a3 h3 a4 h4) K := by
  simp only [cc0__denom_kernel_eq_skeleton]; unfold cc0__denom_kernel_skel
  unfold owns
  iintro ⟨⟨%f0, %hf0, H0⟩, ⟨%f1, %hf1, H1⟩, ⟨%f2, %hf2, H2⟩, Hk⟩
  obtain rfl := h2.eq_unread hf0; obtain rfl := h3.eq_unread hf1; obtain rfl := h4.eq_unread hf2
  sl_exec (disch := first | exact hc)
  sl_step
  iapply Hk
  isplitl [H0]
  · iexists _; isplitr; · ipureintro; exact h2.read_unread _
    iexact H0
  isplitl [H1]
  · iexists _; isplitr; · ipureintro; exact h3.read_unread _
    iexact H1
  iexists _; isplitr; swap; · iexact H2
  ipureintro
  have hz1 : (![0] : Fin S512.rank → ℕ) = fun _ => 0 := by funext a; fin_cases a; rfl
  have hz2 : (![0, 0] : Fin S512x256.rank → ℕ) = fun _ => 0 := by funext a; fin_cases a <;> rfl
  rw [View.read_writes_eq_canon _ _ _ (fun y => ⟨_, List.mem_cons_self, View.mem_set_unit_zero hz1 inb_S512_S512_0 y⟩)]
  rw [View.canon_cons_unit_zero hz1]
  sl_unfold_run_names
  simp only [View.readAt_eq_ld, h2.read_unread, h3.read_unread, View.ld_unit_zero (S := S512x256) hz2]
  rw [h4.read_unread, View.ld_unit_zero (S := S512) hz1]

/-! ## The body obligation at a generic point -/

/-- Each window's current staging buffer at point `t`, spelled as the pipeline passes it, and its wholeness. -/
abbrev ms0 (t : Fin cfg0.N) : Memref sig .tc .vmem S512x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512 .f32 := win0_2.stage (cfg0.slots t 2)
abbrev hs2 (t : Fin cfg0.N) : (ms2 t).IsWhole := hstage0_2 ((cfg0.slots t 2).cast nbuf0_2)

/-- What the body is called with at point `t`, the windows one by one, -/
def bodyPre (c : Dev nD) (t : Fin cfg0.N) : sProp 𝕄 :=
  iprop((dats m ρ 0 c).Φ t.castSucc ∗ (dats m ρ 0 c).owesAt () t.castSucc
    ∗ (∃ d, owns (c : Thread nD τ) (ms0 t) fullShare ((dats m ρ 0 c).before 0 t d))
    ∗ (∃ d, owns (c : Thread nD τ) (ms1 t) fullShare ((dats m ρ 0 c).before 1 t d))
    ∗ (∃ d, owns (c : Thread nD τ) (ms2 t) fullShare ((dats m ρ 0 c).before 2 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (ms0 t) fullShare ((dats m ρ 0 c).after 0 t)
    ∗ owns (c : Thread nD τ) (ms1 t) fullShare ((dats m ρ 0 c).after 1 t)
    ∗ owns (c : Thread nD τ) (ms2 t) fullShare ((dats m ρ 0 c).after 2 t))

set_option maxHeartbeats 800000 in
/-- The body at any point: the operands' buffers hold their blocks; the point's position in its row tile says
    which case applies and, in the second, that the running sums' buffer holds what the point before left. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before_0, before_1]
  rw [show (dats m ρ 0 c).Φ t.succ = (dats m ρ 0 c).Φ t.castSucc from rfl,
    show (dats m ρ 0 c).owesAt () t.succ = (dats m ρ 0 c).owesAt () t.castSucc from rfl,
    after_0, after_1, after_2]
  by_cases h0 : t.val % 16 = 0
  · have hacc : acc m ρ c t = k0_pay2 (grid0.coords t) (iblk m ρ c 0 t) (iblk m ρ c 1 t) (k0_pay1 (F := F)) := by
      unfold acc; rw [accG_reset _ _ _ _ h0, b0_eq, b1_eq]
    rw [hacc]
    iintro ⟨HΦ, Ho, ⟨%d0, H0⟩, ⟨%d1, H1⟩, ⟨%d2, H2⟩⟩
    iapply (runA c (grid0.coords t) _ _ _ _ _ _ ((hcond t).mpr h0) (iblk m ρ c 0 t) (iblk m ρ c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · have hacc : acc m ρ c t = k0_pay2 (grid0.coords t) (iblk m ρ c 0 t) (iblk m ρ c 1 t)
        (acc m ρ c ⟨t.val - 1, Nat.lt_of_le_of_lt (Nat.sub_le _ _) t.isLt⟩) := by
      unfold acc; rw [accG_step _ _ _ _ h0, b0_eq, b1_eq]
    rw [hacc]
    simp only [before_2_step m ρ c t h0]
    iintro ⟨HΦ, Ho, ⟨%d0, H0⟩, ⟨%d1, H1⟩, ⟨%d2, H2⟩⟩
    iapply (runB c (grid0.coords t) _ _ _ _ _ _ (fun h => h0 ((hcond t).mp h)) (iblk m ρ c 0 t) (iblk m ρ c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The pipeline library's body obligation, at every point. -/
theorem body_obligation (c : Dev nD) : BodyObligation (dats (F := F) m ρ 0 c) (defs₀ (F := F)) Variants.none () Set.univ := fun t => by
  rw [bigSep_W0, bigSep_W0]
  exact sound_body m ρ c t

end Cert.Kernel.Hand

end
-- ==== Proof.BKeep.lean ====
/-
  (The same statements and proofs as for the idealized program, for the program as printed: the two texts differ
  only in the name of their namespace, and nothing below depends on the float instance.)

  Which buffers the operations on whole arrays write, for any float instance.

  Twelve operations run before the tiled evaluation and thirty-four after it. Each writes one buffer of its own,
  so a buffer on neither list — an input above all — reaches the end as it was; and the second stretch does not
  write the buffer of row sums the tiled evaluation left, nor the normalised matrix.
-/
import proofs.«126791_j28630251995607_1_alg».proof.Proof.Gen.Kernel.Launch
import Idealize.ShloMosaic.Lib.StableHlo.Run

noncomputable section

namespace Cert.Kernel.Hand

open Idealize.ShloMosaic Idealize.ShloMosaic.TcCoe Idealize.SL.Sem Idealize.ShloMosaic.StableHlo Cert.Kernel Cert.Kernel.Gen

variable {F : FTy → Type} [FloatOps F]

/-! ## What the host operations write -/

/-- The buffers written before the tiled evaluation. -/
abbrev hostOps0_W : List (Ref sig .tc) :=
  [main_v0, main_v1, main_cst, main_v2, main_v3, main_v4, main_cst_0, main_v5, main_v6, main_v7, main_v8, main_v9]

theorem hostOps0_writes : (hostOps0 : List (HloOp τ sig (Elt F))).Forall fun op =>
    op.writes ⊆ (hostOps0_W.map (Proc.devRef (τ := τ) .tc)).toFinset := by
  simp only [List.Forall]
  repeat' apply And.intro
  all_goals
    simp only [StableHlo.nullary_writes, StableHlo.unary_writes, StableHlo.binary_writes, Finset.singleton_subset_iff, List.mem_toFinset]
    exact List.mem_map_of_mem (by decide)

/-- The buffers written after it. -/
abbrev hostOps1_W : List (Ref sig .tc) :=
  [main_v11, main_cst_1, main_v12, main_v13, main_v14, main_cst_2, main_v15, main_v16, main_v17, main_v18, main_v19, main_cst_3,
   main_v20, main_v21, main_v22, main_cst_4, main_v23, main_v24, main_v25, main_v26, main_v27, main_cst_5, main_v28, main_v29,
   main_cst_6, main_v30, main_v31, main_v32, main_v33, main_cst_7, main_v34, main_cst_8, main_v35, main_v36]

theorem hostOps1_writes : (hostOps1 : List (HloOp τ sig (Elt F))).Forall fun op =>
    op.writes ⊆ (hostOps1_W.map (Proc.devRef (τ := τ) .tc)).toFinset := by
  simp only [List.Forall]
  repeat' apply And.intro
  all_goals
    simp only [StableHlo.nullary_writes, StableHlo.unary_writes, StableHlo.binary_writes, Finset.singleton_subset_iff, List.mem_toFinset]
    exact List.mem_map_of_mem (by decide)

/-- A buffer outside the first list is unchanged by the operations before the tiled evaluation. -/
theorem pre_keeps (W : Valuation τ sig (Elt F)) (r : Ref sig .tc) (h : r ∉ hostOps0_W) :
    StableHlo.after (hostOps0 (F := F)) W (Proc.devRef .tc r) = W (Proc.devRef .tc r) :=
  StableHlo.after_of_writes_sub hostOps0 W hostOps0_writes h

/-- A buffer outside the second list is unchanged by the operations after it. -/
theorem tail_keeps (W : Valuation τ sig (Elt F)) (r : Ref sig .tc) (h : r ∉ hostOps1_W) :
    StableHlo.after (hostOps1 (F := F)) W (Proc.devRef .tc r) = W (Proc.devRef .tc r) :=
  StableHlo.after_of_writes_sub hostOps1 W hostOps1_writes h

theorem pre_arg0 (W : Valuation τ sig (Elt F)) :
    StableHlo.after (hostOps0 (F := F)) W (Proc.devRef .tc main_arg0) = W (Proc.devRef .tc main_arg0) := pre_keeps W main_arg0 (by decide)
theorem pre_arg1 (W : Valuation τ sig (Elt F)) :
    StableHlo.after (hostOps0 (F := F)) W (Proc.devRef .tc main_arg1) = W (Proc.devRef .tc main_arg1) := pre_keeps W main_arg1 (by decide)
theorem pre_v10 (W : Valuation τ sig (Elt F)) :
    StableHlo.after (hostOps0 (F := F)) W (Proc.devRef .tc main_v10) = W (Proc.devRef .tc main_v10) := pre_keeps W main_v10 (by decide)
theorem tail_arg0 (W : Valuation τ sig (Elt F)) :
    StableHlo.after (hostOps1 (F := F)) W (Proc.devRef .tc main_arg0) = W (Proc.devRef .tc main_arg0) := tail_keeps W main_arg0 (by decide)
theorem tail_arg1 (W : Valuation τ sig (Elt F)) :
    StableHlo.after (hostOps1 (F := F)) W (Proc.devRef .tc main_arg1) = W (Proc.devRef .tc main_arg1) := tail_keeps W main_arg1 (by decide)
theorem tail_v9 (W : Valuation τ sig (Elt F)) :
    StableHlo.after (hostOps1 (F := F)) W (Proc.devRef .tc main_v9) = W (Proc.devRef .tc main_v9) := tail_keeps W main_v9 (by decide)
theorem tail_v10 (W : Valuation τ sig (Elt F)) :
    StableHlo.after (hostOps1 (F := F)) W (Proc.devRef .tc main_v10) = W (Proc.devRef .tc main_v10) := tail_keeps W main_v10 (by decide)

end Cert.Kernel.Hand

end
-- ==== Proof.BRun.lean ====
/-
  (The same statements and proofs as for the idealized program, for the program as printed: the two texts differ
  only in the name of their namespace, and nothing below depends on the float instance.)

  The run of the whole program around the tiled evaluation, for any float instance.

  @main is three stretches in a row: twelve operations on whole arrays that stack the two inputs and normalise
  the rows; the tiled evaluation of the masked row sums of exponentials (one kernel region over a 16 × 16 grid);
  thirty-four operations on whole arrays that compute the positives and finish the loss from the row sums.

  The first stretch runs over all the unscoped buffers and leaves them at what its operations compute. The region
  is entered from there: the buffer of the normalised matrix is read by BOTH input windows, so its full share is
  split into two halves, one per window, for the duration of the region, and joined again at the exit (no input
  window writes, so both halves come back at the contents they went in with); the buffer of row sums goes in whole
  and comes back at what the write-backs of the sixteen row tiles made of it; every other buffer bypasses the
  region untouched. The second stretch then runs from the buffers as the region left them.

  So every weakly fair execution terminates without a fault, the result's buffer ends at what the second stretch
  computes from the row sums the region left, and the two argument buffers — which no operation of either
  stretch writes and no window stages — end as they were launched.
-/
import proofs.«126791_j28630251995607_1_alg».proof.Proof.BBody
import proofs.«126791_j28630251995607_1_alg».proof.Proof.BKeep

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁
abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev R (c : Dev nD) : sProp 𝕄 := iprop(∃ W, owes (c : Thread nD τ) (0 : CellTallies nD τ sig Unit) W)

/-- The running sums' array when the region is left. -/
def outArr (c : Dev nD) : Buf (Elt F) ((c : Thread nD τ).loc main_v10) := (dats m ρ 0 c).arrAt 2 cfg0.N

/-- Core c's buffers when the region is left: as it was entered, but for the array of row sums. -/
def V1 (c : Dev nD) : Valuation τ sig (Elt F) :=
  Function.update (StableHlo.after hostOps0 (V₀ m ρ c)) (Proc.devRef .tc main_v10) (outArr m ρ c)

def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m ρ) R

def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (V1 m ρ) R

/-- The buffers behind the windows' arrays are two: the normalised matrix and the row sums. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v9) ↦{fullShare} W main_v9) ∗ (((c : Thread nD τ).loc main_v10) ↦{fullShare} W main_v10)) := by
  unfold Pipeline.arrBufs
  rw [show Finset.univ.image (Pipeline.arrRef spec0) = insert main_v9 {main_v10} from by decide,
    bigSep_insert (by decide), bigSep_singleton]
  rfl

/-- The pipeline's arrays window by window: the matrix at half the share twice, the row sums whole. -/
theorem arrays_three (c : Dev nD) (Fv : (w : Fin cfg0.W) → Buf (Elt F) ((cfg0.win w).arr.view.loc (c : Thread nD τ))) :
    ((dats m ρ 0 c).arrays Fv : sProp 𝕄)
      = iprop((((c : Thread nD τ).loc main_v9) ↦{fullShare.left} Fv 0) ∗ (((c : Thread nD τ).loc main_v9) ↦{fullShare.right} Fv 1)
          ∗ (((c : Thread nD τ).loc main_v10) ↦{fullShare} Fv 2)) := by
  unfold Dat.arrays
  rw [bigSep_W0]
  simp only [Memref.view_whole, View.set_whole]
  rfl

/-- An input's array is never written. -/
theorem arrAt_0 (c : Dev nD) (n : ℕ) : (dats m ρ 0 c).arrAt 0 n = V m ρ c main_v9 := (dats m ρ 0 c).arrAt_in 0 rfl n
theorem arrAt_1 (c : Dev nD) (n : ℕ) : (dats m ρ 0 c).arrAt 1 n = V m ρ c main_v9 := (dats m ρ 0 c).arrAt_in 1 rfl n

/-- The whole share of the matrix's buffer is its two halves. -/
theorem v9_halves (c : Dev nD) (f : Buf (Elt F) ((c : Thread nD τ).loc main_v9)) :
    ((((c : Thread nD τ).loc main_v9) ↦{fullShare} f : sProp 𝕄))
      ⊣⊢ iprop((((c : Thread nD τ).loc main_v9) ↦{fullShare.left} f) ∗ (((c : Thread nD τ).loc main_v9) ↦{fullShare.right} f)) :=
  pointsTo_share (PosShare.mem_left_op_right fullShare)

theorem V1_v10 (c : Dev nD) : V1 m ρ c (Proc.devRef .tc main_v10) = outArr m ρ c := Function.update_self _ _ _
theorem V1_of_ne (c : Dev nD) (b : Ref sig .tc) (hb : b ≠ main_v10) :
    V1 m ρ c (Proc.devRef .tc b) = StableHlo.after hostOps0 (V₀ m ρ c) (Proc.devRef .tc b) :=
  Function.update_of_ne (fun h => hb (Proc.devRef_injective _ h)) _ _

-- the region record's fields are stated over the pipeline at its pinned tables; unifying them with the printed
-- configuration unfolds plain definitions in a metavariable's type
set_option backward.isDefEq.respectTransparency.types false in
/-- THE REGION. Entered from what the first host stretch left: the matrix's buffer is split into two half
    shares, one per input window; the row sums' buffer goes in whole; every other unscoped buffer bypasses.
    Left with the two halves rejoined (neither window wrote) and the row sums at their final contents. -/
def reg0 : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) (Pipeline.ucRefs τ sig) (V1 m ρ c) ∗ R c)
  X c := iprop(emp)
  Y c := iprop(emp)
  Z c := Pipeline.unscopedRest (Ix := Unit) (Name := ℕ) (U := UR sig nD τ) (Lvl := ℕ) spec0 c (V m ρ c)
  hentry c := by
    rw [show StableHlo.held (c : Thread nD τ) (Pipeline.ucRefs τ sig) (StableHlo.after hostOps0 (V₀ m ρ c)) = unscopedBufs c (V m ρ c) from (Pipeline.unscopedBufs_held c _).symm,
      Pipeline.unscopedBufs_split₀ cfgs 0 winFacts₀0.arr_unscoped c (V m ρ c), arrBufs_eq, arrays_three]
    iintro ⟨⟨⟨⟨H9, H10⟩, Hrest⟩, HO⟩, -, -⟩
    have hs := (v9_halves (F := F) c (V m ρ c main_v9)).1
    ihave H := hs $$ H9
    icases H with ⟨H9l, H9r⟩
    imodintro
    isplitl [H9l H9r H10]
    · isplitl [H9l]; · iexact H9l
      isplitl [H9r]; · iexact H9r
      iexact H10
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m ρ 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m ρ 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [arrays_three, arrAt_0, arrAt_1]
    iintro ⟨⟨H9l, H9r, H10⟩, HO, -, HZ⟩
    have hj := (v9_halves (F := F) c (V m ρ c main_v9)).2
    ihave H9 := hj $$ [H9l H9r]
    · isplitl [H9l] <;> iassumption
    imodintro
    isplitr [HO]
    · rw [show StableHlo.held (c : Thread nD τ) (Pipeline.ucRefs τ sig) (V1 m ρ c) = unscopedBufs c (fun b => V1 m ρ c b) from (Pipeline.unscopedBufs_held c _).symm,
        Pipeline.unscopedBufs_split₀ cfgs 0 winFacts₀0.arr_unscoped c (fun b => V1 m ρ c b), arrBufs_eq]
      isplitl [H9 H10]
      · isplitl [H9]
        · rw [V1_of_ne m ρ c main_v9 (by decide)]; iexact H9
        · rw [V1_v10]; iexact H10
      · have he : (Pipeline.unscopedRest (Ix := Unit) (Name := ℕ) (U := UR sig nD τ) (Lvl := ℕ) spec0 c (fun b => V1 m ρ c b) : sProp 𝕄)
            = Pipeline.unscopedRest (Ix := Unit) (Name := ℕ) (U := UR sig nD τ) (Lvl := ℕ) spec0 c (V m ρ c) := by
          unfold Pipeline.unscopedRest
          exact bigSep_congr fun b hb => by
            have hne : b ≠ main_v10 := fun h => (Finset.mem_sdiff.mp hb).2 (h ▸ Finset.mem_image.mpr ⟨2, Finset.mem_univ _, rfl⟩)
            show (((c : Thread nD τ).loc b) ↦{fullShare} V1 m ρ c (Proc.devRef .tc b) : sProp 𝕄) = _
            rw [V1_of_ne m ρ c b hne]
        rw [he]; iexact HZ
    · unfold Pipeline.Dat.owesAt Pipeline.owesWithin
      icases HO with ⟨%W, -, HO⟩; iexists W; iexact HO

/-- @main as the list of the three: the first host stretch, the region, the second host stretch. -/
abbrev segs : List (Pipeline.Seg (pcfgs (F := F)) adm (dats m ρ) () defs₀ 𝒱₀ L lv) :=
  [.host (seg0 m ρ), .region (reg0 m ρ), .host (seg1 m ρ)]

/-- The launch element: the pipeline library's at the staging cells. -/
def u₀ : UR sig nD τ := initOf (Pipeline.cells cfgs cellOf_inj) (Pipeline.launchToks cfgs cellOf_inj)

/-- What every final state satisfies: the result's buffer holds what the second host stretch computes from the
    buffers the region left, and both arguments are as launched. -/
def QC : PUnit × MemSt nD τ sig (Elt F) → Prop := fun r => ∀ c : Dev nD,
  r.2.mem ((c : Thread nD τ).loc main_v36) = StableHlo.after hostOps1 (V1 m ρ c) (Proc.devRef .tc main_v36)
  ∧ r.2.mem ((c : Thread nD τ).loc main_arg0) = m ((c : Thread nD τ).loc main_arg0)
  ∧ r.2.mem ((c : Thread nD τ).loc main_arg1) = m ((c : Thread nD τ).loc main_arg1)

theorem end_arg0 (c : Dev nD) : StableHlo.after hostOps1 (V1 m ρ c) (Proc.devRef .tc main_arg0) = m ((c : Thread nD τ).loc main_arg0) := by
  rw [tail_arg0, V1_of_ne m ρ c main_arg0 (by decide), pre_arg0]
theorem end_arg1 (c : Dev nD) : StableHlo.after hostOps1 (V1 m ρ c) (Proc.devRef .tc main_arg1) = m ((c : Thread nD τ).loc main_arg1) := by
  rw [tail_arg1, V1_of_ne m ρ c main_arg1 (by decide), pre_arg1]

theorem mem_uc (b : Ref sig .tc) (hb : b.isScoped = false) : Proc.devRef .tc b ∈ Pipeline.ucRefs τ sig := by
  unfold Pipeline.ucRefs StableHlo.tcRefs
  exact Finset.mem_filter.mpr ⟨Finset.mem_map.mpr ⟨b, Finset.mem_univ _, rfl⟩, by simp [hb]⟩

-- the launch theorem's implicit arguments are found by unifying its conclusion with this one, which takes
-- unfolding plain definitions in a metavariable's type
set_option backward.isDefEq.respectTransparency.types false in
/-- At the compiled mesh, for any float values, from any memory with zero counters: every weakly fair execution of
    @main terminates, nothing faulting, and every final state has the result at what the second host stretch
    computes from the row sums the region left and both arguments unchanged. -/
theorem run_main : θ_run defs (onTc (τ := τ) (main (F := F))) (s₀ m ρ) (QC m ρ) :=
  Pipeline.θ_run_regions_kit (pcfgs (F := F)) adm (dats m ρ) () cellOf_inj EP defs₀ 𝒱₀ L lv m ρ main (segs m ρ)
    (fun c Q => by rw [main_segs adm (dats m ρ) () 𝒱₀ L lv (seg0 m ρ) (seg1 m ρ) (reg0 m ρ) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      imodintro
      isplitl [Hu]
      · iapply (show (ownU _ : sProp 𝕄) ⊢ BI.own (emb₁ (initOf (Pipeline.cells (Pipeline.pin (pcfgs (F := F)) adm) cellOf_inj)
            (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => StableHlo.held (c : Thread nD τ) (Pipeline.ucRefs τ sig) (StableHlo.after hostOps1 (V1 m ρ c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => s.mem ((c : Thread nD τ).loc main_v36) = StableHlo.after hostOps1 (V1 m ρ c) (Proc.devRef .tc main_v36)
      ∧ s.mem ((c : Thread nD τ).loc main_arg0) = m ((c : Thread nD τ).loc main_arg0)
      ∧ s.mem ((c : Thread nD τ).loc main_arg1) = m ((c : Thread nD τ).loc main_arg1))
    (hfin := fun c s' => by
      unfold StableHlo.held
      iintro ⟨Hh, HSI⟩
      ihave Hr := (pointsTo_read_all (Pipeline.ucRefs τ sig) (fun b => ((c : Thread nD τ).1, b)) (fun b => StableHlo.after hostOps1 (V1 m ρ c) b) s') $$ [Hh HSI]
      · isplitl [Hh] <;> iassumption
      icases Hr with ⟨%ha, HSI⟩
      imodintro
      isplitr
      · ipureintro
        exact ⟨ha _ (mem_uc main_v36 rfl), (ha _ (mem_uc main_arg0 rfl)).trans (end_arg0 m ρ c), (ha _ (mem_uc main_arg1 rfl)).trans (end_arg1 m ρ c)⟩
      iexact HSI)
    (hQ := fun _ h => h)

end Cert.Kernel.Hand

end
-- ==== Proof.KAcc.lean ====
/-
  The running row sums the tiled evaluation keeps, as a recursion on the grid point, for any float instance.

  The grid is 16 × 16, walked row tile by row tile: point `n` is row tile `n / 16`, column tile `n % 16`.
  At each point the body adds to a block of 512 running sums the masked row sums of one 512 × 512 tile
  (`k0_pay2`: the tile's Gram entries doubled, exponentiated, the global diagonal replaced by zero, summed
  along the columns). At the first column tile of a row tile (`n % 16 = 0`) the running sums are first reset
  to zero (`k0_pay1`); at every other point they are what the point before left. `accG b0 b1 n` is the block
  of running sums after point `n`, given the row-tile operand `b0 n` and the column-tile operand `b1 n` the
  body reads there.
-/
import proofs.«126791_j28630251995607_1_alg».proof.Proof.Gen.KernelIdeal.Skeleton

noncomputable section

namespace Cert.KernelIdeal.Hand

open Idealize.ShloMosaic Cert.KernelIdeal Cert.KernelIdeal.Gen

variable {F : FTy → Type} [FloatOps F]

/-- The block of running sums after point `n`. -/
def accG (b0 b1 : ℕ → Vec F S512x256 .bf16) : (n : ℕ) → n < grid0.N → Vec F S512 .f32
  | 0, h => k0_pay2 (grid0.coords ⟨0, h⟩) (b0 0) (b1 0) (k0_pay1 (F := F))
  | n + 1, h =>
    if (n + 1) % 16 = 0 then k0_pay2 (grid0.coords ⟨n + 1, h⟩) (b0 (n + 1)) (b1 (n + 1)) (k0_pay1 (F := F))
    else k0_pay2 (grid0.coords ⟨n + 1, h⟩) (b0 (n + 1)) (b1 (n + 1)) (accG b0 b1 n (Nat.lt_of_succ_lt h))

/-- At the first column tile of a row tile the sums restart from zero. -/
theorem accG_reset (b0 b1 : ℕ → Vec F S512x256 .bf16) (n : ℕ) (h : n < grid0.N) (h0 : n % 16 = 0) :
    accG b0 b1 n h = k0_pay2 (grid0.coords ⟨n, h⟩) (b0 n) (b1 n) (k0_pay1 (F := F)) := by
  cases n with
  | zero => rfl
  | succ n => exact (if_pos h0).trans rfl

/-- At any other point they continue from the point before. -/
theorem accG_step (b0 b1 : ℕ → Vec F S512x256 .bf16) (n : ℕ) (h : n < grid0.N) (h0 : ¬ n % 16 = 0) :
    accG b0 b1 n h = k0_pay2 (grid0.coords ⟨n, h⟩) (b0 n) (b1 n)
      (accG b0 b1 (n - 1) (Nat.lt_of_le_of_lt (Nat.sub_le _ _) h)) := by
  cases n with
  | zero => exact absurd (Nat.zero_mod _) h0
  | succ n => exact (if_neg h0).trans rfl

end Cert.KernelIdeal.Hand

end
-- ==== Proof.KData.lean ====
/-
  The proof data of the tiled evaluation's pipeline, for any float instance.

  The pipeline has three windows over a 16 × 16 grid walked row tile by row tile (point `t` is row tile
  `t / 16`, column tile `t % 16`): window 0 reads the row tile's 512 rows of the normalised matrix,
  window 1 the column tile's 512 rows of THE SAME matrix, window 2 is the block of 512 running row sums of
  the row tile, written back when the row tile's last column tile is done. The two input windows look at
  one array, so each holds half of the reading share of it.

  What each staging buffer holds after the body at point `t`: the inputs still hold the blocks they were
  given; the output holds the running sums `accG` (reset at the first column tile of a row tile, otherwise
  the point before's plus this tile's masked row sums). The invariant carried between points is only the
  scoped buffers that are nobody's staging buffer; the core owes nothing.
-/
import proofs.«126791_j28630251995607_1_alg».proof.Proof.KAcc
import proofs.«126791_j28630251995607_1_alg».proof.Proof.Gen.KernelIdeal.Launch
import proofs.«126791_j28630251995607_1_alg».proof.Proof.Gen.KernelIdeal.Points
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at launch, as a valuation; -/
abbrev V₀ (c : Dev nD) : Valuation τ sig (Elt F) := fun b => (s₀ m ρ).mem ((c : Dev nD), b)
/-- and when the region is entered: the twelve operations that stack and normalise the rows have run. -/
abbrev V (c : Dev nD) (b : Ref sig .tc) : Buf (Elt F) ((c : Thread nD τ).loc b) := StableHlo.after hostOps0 (V₀ m ρ c) b

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

theorem N_pos : 0 < cfg0.N := by decide

/-- The row-tile operand at point `n` (points past the grid wrap around; no statement looks there). -/
def b0 (c : Dev nD) (n : ℕ) : Vec F S512x256 .bf16 := iblk m ρ c 0 ⟨n % cfg0.N, Nat.mod_lt n N_pos⟩
/-- The column-tile operand at point `n`. -/
def b1 (c : Dev nD) (n : ℕ) : Vec F S512x256 .bf16 := iblk m ρ c 1 ⟨n % cfg0.N, Nat.mod_lt n N_pos⟩

theorem b0_congr (c : Dev nD) (s t : Fin cfg0.N) (h : s = t) :
    (show Vec F S512x256 .bf16 from iblk m ρ c 0 s) = (show Vec F S512x256 .bf16 from iblk m ρ c 0 t) := by subst h; rfl
theorem b1_congr (c : Dev nD) (s t : Fin cfg0.N) (h : s = t) :
    (show Vec F S512x256 .bf16 from iblk m ρ c 1 s) = (show Vec F S512x256 .bf16 from iblk m ρ c 1 t) := by subst h; rfl

theorem b0_eq (c : Dev nD) (t : Fin cfg0.N) : b0 m ρ c t.val = iblk m ρ c 0 t :=
  b0_congr m ρ c _ t (Fin.ext (Nat.mod_eq_of_lt t.isLt))
theorem b1_eq (c : Dev nD) (t : Fin cfg0.N) : b1 m ρ c t.val = iblk m ρ c 1 t :=
  b1_congr m ρ c _ t (Fin.ext (Nat.mod_eq_of_lt t.isLt))

/-- The running sums after point `t`. -/
def acc (c : Dev nD) (t : Fin cfg0.N) : Vec F S512 .f32 := accG (b0 m ρ c) (b1 m ρ c) t.val t.isLt

/-! ## The body's one branch -/

/-- The body resets the running sums when the column coordinate is zero: the printed scalar chain. -/
abbrev cond (i : grid0.Coords) : Prop :=
  (Scalar.cmpi .ne (Scalar.extui (Scalar.cmpi .eq (BitVec.ofNat 32 (i 1).val) 0#32)) 0#32) = 1#1
/-- Over the grid that is: at the first of every sixteen points. -/
theorem hcond : ∀ t : Fin cfg0.N, cond (grid0.coords t) ↔ t.val % 16 = 0 :=
  (by decide +kernel : ∀ t : Fin grid0.N, cond (grid0.coords t) ↔ t.val % 16 = 0)

/-! ## The proof data -/

/-- The proof data on core `c`. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => acc m ρ c t
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m ρ 0 c).A w = V m ρ c (Pipeline.arrRef spec0 w) := by
  dsimp only [dats]

theorem after_0 (c : Dev nD) (t : Fin cfg0.N) : (dats m ρ 0 c).after 0 t = iblk m ρ c 0 t := by dsimp only [dats]
theorem after_1 (c : Dev nD) (t : Fin cfg0.N) : (dats m ρ 0 c).after 1 t = iblk m ρ c 1 t := by dsimp only [dats]
theorem after_2 (c : Dev nD) (t : Fin cfg0.N) : (dats m ρ 0 c).after 2 t = acc m ρ c t := by dsimp only [dats]

/-- Each input's current staging buffer holds its block at every point, fetched there or not: where it is
    not fetched the block index has not moved. -/
theorem before_0 (c : Dev nD) (t : Fin cfg0.N) (d) : (dats m ρ 0 c).before 0 t d = iblk m ρ c 0 t :=
  ((dats m ρ 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m ρ 0 c).before 1 t d = iblk m ρ c 1 t :=
  ((dats m ρ 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- Within a row tile the output's staging buffer still holds what the point before left: the block is
    written back only after the row tile's last column tile. -/
theorem before_2_step (c : Dev nD) (t : Fin cfg0.N) (h0 : ¬ t.val % 16 = 0) (d) :
    (dats m ρ 0 c).before 2 t d = acc m ρ c ⟨t.val - 1, Nat.lt_of_le_of_lt (Nat.sub_le _ _) t.isLt⟩ := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    (fun _ => rfl) (fun _ _ => rfl)]
  dsimp only [dats]

end Cert.KernelIdeal.Hand

end
-- ==== Proof.KBody.lean ====
/-
  The body of the tiled evaluation, run once on arbitrary whole staging buffers in each of its two cases,
  and from that the body obligation at every grid point, for any float instance.

  The body first looks at the column coordinate. If it is zero it overwrites the 512 running sums with zeros.
  Then, in both cases, it reads the row-tile operand, the column-tile operand and the running sums, and stores
  back the running sums plus the tile's masked row sums (`k0_pay2`). So on buffers holding `x0`, `x1` and anything
  the first case leaves `k0_pay2 i x0 x1 0`; on buffers holding `x0`, `x1`, `xo` the second leaves
  `k0_pay2 i x0 x1 xo`; the operands are left as they were. Every store writes the whole buffer, so what the
  buffer reads afterwards is the last store's value, and a load after a store reads that store's value.

  At grid point `t` the operands' buffers hold the row tile's and the column tile's blocks of the normalised
  matrix (fetched there, or left from the point before when the block index has not moved); the running sums'
  buffer holds what the point before left unless `t` starts a row tile. The case is decided by `t % 16 = 0`.
-/
import proofs.«126791_j28630251995607_1_alg».proof.Proof.KData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on any whole staging buffers -/

set_option maxHeartbeats 1000000 in
/-- First column tile of a row tile: the running sums restart from zero. -/
theorem runA (c : Dev nD) (i : grid0.Coords)
    (a2 : Memref sig .tc .vmem S512x256 .bf16) (h2 : a2.IsWhole) (a3 : Memref sig .tc .vmem S512x256 .bf16) (h3 : a3.IsWhole)
    (a4 : Memref sig .tc .vmem S512 .f32) (h4 : a4.IsWhole) (hc : cond i) (x0 x1 : Vec F S512x256 .bf16)
    (E : Set ℕ) (K : PUnit → sProp 𝕄) :
    iprop(owns (c : Thread nD τ) a2 fullShare x0 ∗ owns (c : Thread nD τ) a3 fullShare x1 ∗ (∃ X, owns (c : Thread nD τ) a4 fullShare X)
        ∗ (iprop(owns (c : Thread nD τ) a2 fullShare x0 ∗ owns (c : Thread nD τ) a3 fullShare x1
            ∗ owns (c : Thread nD τ) a4 fullShare (k0_pay2 i x0 x1 (k0_pay1 (F := F)))) -∗ K ⟨⟩))
      ⊢ wp frame (wpE (defs₀ (F := F)) Variants.none c none) E (cc0__denom_kernel i a2 h2 a3 h3 a4 h4) K := by
  simp only [cc0__denom_kernel_eq_skeleton]; unfold cc0__denom_kernel_skel
  unfold owns
  iintro ⟨⟨%f0, %hf0, H0⟩, ⟨%f1, %hf1, H1⟩, ⟨%X, %f2, %hf2, H2⟩, Hk⟩
  obtain rfl := h2.eq_unread hf0; obtain rfl := h3.eq_unread hf1
  sl_exec (disch := first | exact hc)
  sl_step
  iapply Hk
  isplitl [H0]
  · iexists _; isplitr; · ipureintro; exact h2.read_unread _
    iexact H0
  isplitl [H1]
  · iexists _; isplitr; · ipureintro; exact h3.read_unread _
    iexact H1
  iexists _; isplitr; swap; · iexact H2
  ipureintro
  have hz1 : (![0] : Fin S512.rank → ℕ) = fun _ => 0 := by funext a; fin_cases a; rfl
  have hz2 : (![0, 0] : Fin S512x256.rank → ℕ) = fun _ => 0 := by funext a; fin_cases a <;> rfl
  rw [View.read_writes_eq_canon _ _ _ (fun y => ⟨_, List.mem_cons_self, View.mem_set_unit_zero hz1 inb_S512_S512_0 y⟩)]
  rw [View.canon_cons_unit_zero hz1]
  sl_unfold_run_names
  simp only [View.readAt_eq_ld, h2.read_unread, h3.read_unread, View.ld_unit_zero (S := S512x256) hz2]
  rw [View.readCov_unit_zero _ hz1]

set_option maxHeartbeats 1000000 in
/-- Any other point: the running sums continue from what the buffer holds. -/
theorem runB (c : Dev nD) (i : grid0.Coords)
    (a2 : Memref sig .tc .vmem S512x256 .bf16) (h2 : a2.IsWhole) (a3 : Memref sig .tc .vmem S512x256 .bf16) (h3 : a3.IsWhole)
    (a4 : Memref sig .tc .vmem S512 .f32) (h4 : a4.IsWhole) (hc : ¬ cond i) (x0 x1 : Vec F S512x256 .bf16) (xo : Vec F S512 .f32)
    (E : Set ℕ) (K : PUnit → sProp 𝕄) :
    iprop(owns (c : Thread nD τ) a2 fullShare x0 ∗ owns (c : Thread nD τ) a3 fullShare x1 ∗ owns (c : Thread nD τ) a4 fullShare xo
        ∗ (iprop(owns (c : Thread nD τ) a2 fullShare x0 ∗ owns (c : Thread nD τ) a3 fullShare x1
            ∗ owns (c : Thread nD τ) a4 fullShare (k0_pay2 i x0 x1 xo)) -∗ K ⟨⟩))
      ⊢ wp frame (wpE (defs₀ (F := F)) Variants.none c none) E (cc0__denom_kernel i a2 h2 a3 h3 a4 h4) K := by
  simp only [cc0__denom_kernel_eq_skeleton]; unfold cc0__denom_kernel_skel
  unfold owns
  iintro ⟨⟨%f0, %hf0, H0⟩, ⟨%f1, %hf1, H1⟩, ⟨%f2, %hf2, H2⟩, Hk⟩
  obtain rfl := h2.eq_unread hf0; obtain rfl := h3.eq_unread hf1; obtain rfl := h4.eq_unread hf2
  sl_exec (disch := first | exact hc)
  sl_step
  iapply Hk
  isplitl [H0]
  · iexists _; isplitr; · ipureintro; exact h2.read_unread _
    iexact H0
  isplitl [H1]
  · iexists _; isplitr; · ipureintro; exact h3.read_unread _
    iexact H1
  iexists _; isplitr; swap; · iexact H2
  ipureintro
  have hz1 : (![0] : Fin S512.rank → ℕ) = fun _ => 0 := by funext a; fin_cases a; rfl
  have hz2 : (![0, 0] : Fin S512x256.rank → ℕ) = fun _ => 0 := by funext a; fin_cases a <;> rfl
  rw [View.read_writes_eq_canon _ _ _ (fun y => ⟨_, List.mem_cons_self, View.mem_set_unit_zero hz1 inb_S512_S512_0 y⟩)]
  rw [View.canon_cons_unit_zero hz1]
  sl_unfold_run_names
  simp only [View.readAt_eq_ld, h2.read_unread, h3.read_unread, View.ld_unit_zero (S := S512x256) hz2]
  rw [h4.read_unread, View.ld_unit_zero (S := S512) hz1]

/-! ## The body obligation at a generic point -/

/-- Each window's current staging buffer at point `t`, spelled as the pipeline passes it, and its wholeness. -/
abbrev ms0 (t : Fin cfg0.N) : Memref sig .tc .vmem S512x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512 .f32 := win0_2.stage (cfg0.slots t 2)
abbrev hs2 (t : Fin cfg0.N) : (ms2 t).IsWhole := hstage0_2 ((cfg0.slots t 2).cast nbuf0_2)

/-- What the body is called with at point `t`, the windows one by one, -/
def bodyPre (c : Dev nD) (t : Fin cfg0.N) : sProp 𝕄 :=
  iprop((dats m ρ 0 c).Φ t.castSucc ∗ (dats m ρ 0 c).owesAt () t.castSucc
    ∗ (∃ d, owns (c : Thread nD τ) (ms0 t) fullShare ((dats m ρ 0 c).before 0 t d))
    ∗ (∃ d, owns (c : Thread nD τ) (ms1 t) fullShare ((dats m ρ 0 c).before 1 t d))
    ∗ (∃ d, owns (c : Thread nD τ) (ms2 t) fullShare ((dats m ρ 0 c).before 2 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (ms0 t) fullShare ((dats m ρ 0 c).after 0 t)
    ∗ owns (c : Thread nD τ) (ms1 t) fullShare ((dats m ρ 0 c).after 1 t)
    ∗ owns (c : Thread nD τ) (ms2 t) fullShare ((dats m ρ 0 c).after 2 t))

set_option maxHeartbeats 800000 in
/-- The body at any point: the operands' buffers hold their blocks; the point's position in its row tile says
    which case applies and, in the second, that the running sums' buffer holds what the point before left. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before_0, before_1]
  rw [show (dats m ρ 0 c).Φ t.succ = (dats m ρ 0 c).Φ t.castSucc from rfl,
    show (dats m ρ 0 c).owesAt () t.succ = (dats m ρ 0 c).owesAt () t.castSucc from rfl,
    after_0, after_1, after_2]
  by_cases h0 : t.val % 16 = 0
  · have hacc : acc m ρ c t = k0_pay2 (grid0.coords t) (iblk m ρ c 0 t) (iblk m ρ c 1 t) (k0_pay1 (F := F)) := by
      unfold acc; rw [accG_reset _ _ _ _ h0, b0_eq, b1_eq]
    rw [hacc]
    iintro ⟨HΦ, Ho, ⟨%d0, H0⟩, ⟨%d1, H1⟩, ⟨%d2, H2⟩⟩
    iapply (runA c (grid0.coords t) _ _ _ _ _ _ ((hcond t).mpr h0) (iblk m ρ c 0 t) (iblk m ρ c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · have hacc : acc m ρ c t = k0_pay2 (grid0.coords t) (iblk m ρ c 0 t) (iblk m ρ c 1 t)
        (acc m ρ c ⟨t.val - 1, Nat.lt_of_le_of_lt (Nat.sub_le _ _) t.isLt⟩) := by
      unfold acc; rw [accG_step _ _ _ _ h0, b0_eq, b1_eq]
    rw [hacc]
    simp only [before_2_step m ρ c t h0]
    iintro ⟨HΦ, Ho, ⟨%d0, H0⟩, ⟨%d1, H1⟩, ⟨%d2, H2⟩⟩
    iapply (runB c (grid0.coords t) _ _ _ _ _ _ (fun h => h0 ((hcond t).mp h)) (iblk m ρ c 0 t) (iblk m ρ c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The pipeline library's body obligation, at every point. -/
theorem body_obligation (c : Dev nD) : BodyObligation (dats (F := F) m ρ 0 c) (defs₀ (F := F)) Variants.none () Set.univ := fun t => by
  rw [bigSep_W0, bigSep_W0]
  exact sound_body m ρ c t

end Cert.KernelIdeal.Hand

end
-- ==== Proof.KKeep.lean ====
/-
  Which buffers the operations on whole arrays write, for any float instance.

  Twelve operations run before the tiled evaluation and thirty-four after it. Each writes one buffer of its own,
  so a buffer on neither list — an input above all — reaches the end as it was; and the second stretch does not
  write the buffer of row sums the tiled evaluation left, nor the normalised matrix.
-/
import proofs.«126791_j28630251995607_1_alg».proof.Proof.Gen.KernelIdeal.Launch
import Idealize.ShloMosaic.Lib.StableHlo.Run

noncomputable section

namespace Cert.KernelIdeal.Hand

open Idealize.ShloMosaic Idealize.ShloMosaic.TcCoe Idealize.SL.Sem Idealize.ShloMosaic.StableHlo Cert.KernelIdeal Cert.KernelIdeal.Gen

variable {F : FTy → Type} [FloatOps F]

/-! ## What the host operations write -/

/-- The buffers written before the tiled evaluation. -/
abbrev hostOps0_W : List (Ref sig .tc) :=
  [main_v0, main_v1, main_cst, main_v2, main_v3, main_v4, main_cst_0, main_v5, main_v6, main_v7, main_v8, main_v9]

theorem hostOps0_writes : (hostOps0 : List (HloOp τ sig (Elt F))).Forall fun op =>
    op.writes ⊆ (hostOps0_W.map (Proc.devRef (τ := τ) .tc)).toFinset := by
  simp only [List.Forall]
  repeat' apply And.intro
  all_goals
    simp only [StableHlo.nullary_writes, StableHlo.unary_writes, StableHlo.binary_writes, Finset.singleton_subset_iff, List.mem_toFinset]
    exact List.mem_map_of_mem (by decide)

/-- The buffers written after it. -/
abbrev hostOps1_W : List (Ref sig .tc) :=
  [main_v11, main_cst_1, main_v12, main_v13, main_v14, main_cst_2, main_v15, main_v16, main_v17, main_v18, main_v19, main_cst_3,
   main_v20, main_v21, main_v22, main_cst_4, main_v23, main_v24, main_v25, main_v26, main_v27, main_cst_5, main_v28, main_v29,
   main_cst_6, main_v30, main_v31, main_v32, main_v33, main_cst_7, main_v34, main_cst_8, main_v35, main_v36]

theorem hostOps1_writes : (hostOps1 : List (HloOp τ sig (Elt F))).Forall fun op =>
    op.writes ⊆ (hostOps1_W.map (Proc.devRef (τ := τ) .tc)).toFinset := by
  simp only [List.Forall]
  repeat' apply And.intro
  all_goals
    simp only [StableHlo.nullary_writes, StableHlo.unary_writes, StableHlo.binary_writes, Finset.singleton_subset_iff, List.mem_toFinset]
    exact List.mem_map_of_mem (by decide)

/-- A buffer outside the first list is unchanged by the operations before the tiled evaluation. -/
theorem pre_keeps (W : Valuation τ sig (Elt F)) (r : Ref sig .tc) (h : r ∉ hostOps0_W) :
    StableHlo.after (hostOps0 (F := F)) W (Proc.devRef .tc r) = W (Proc.devRef .tc r) :=
  StableHlo.after_of_writes_sub hostOps0 W hostOps0_writes h

/-- A buffer outside the second list is unchanged by the operations after it. -/
theorem tail_keeps (W : Valuation τ sig (Elt F)) (r : Ref sig .tc) (h : r ∉ hostOps1_W) :
    StableHlo.after (hostOps1 (F := F)) W (Proc.devRef .tc r) = W (Proc.devRef .tc r) :=
  StableHlo.after_of_writes_sub hostOps1 W hostOps1_writes h

theorem pre_arg0 (W : Valuation τ sig (Elt F)) :
    StableHlo.after (hostOps0 (F := F)) W (Proc.devRef .tc main_arg0) = W (Proc.devRef .tc main_arg0) := pre_keeps W main_arg0 (by decide)
theorem pre_arg1 (W : Valuation τ sig (Elt F)) :
    StableHlo.after (hostOps0 (F := F)) W (Proc.devRef .tc main_arg1) = W (Proc.devRef .tc main_arg1) := pre_keeps W main_arg1 (by decide)
theorem pre_v10 (W : Valuation τ sig (Elt F)) :
    StableHlo.after (hostOps0 (F := F)) W (Proc.devRef .tc main_v10) = W (Proc.devRef .tc main_v10) := pre_keeps W main_v10 (by decide)
theorem tail_arg0 (W : Valuation τ sig (Elt F)) :
    StableHlo.after (hostOps1 (F := F)) W (Proc.devRef .tc main_arg0) = W (Proc.devRef .tc main_arg0) := tail_keeps W main_arg0 (by decide)
theorem tail_arg1 (W : Valuation τ sig (Elt F)) :
    StableHlo.after (hostOps1 (F := F)) W (Proc.devRef .tc main_arg1) = W (Proc.devRef .tc main_arg1) := tail_keeps W main_arg1 (by decide)
theorem tail_v9 (W : Valuation τ sig (Elt F)) :
    StableHlo.after (hostOps1 (F := F)) W (Proc.devRef .tc main_v9) = W (Proc.devRef .tc main_v9) := tail_keeps W main_v9 (by decide)
theorem tail_v10 (W : Valuation τ sig (Elt F)) :
    StableHlo.after (hostOps1 (F := F)) W (Proc.devRef .tc main_v10) = W (Proc.devRef .tc main_v10) := tail_keeps W main_v10 (by decide)

end Cert.KernelIdeal.Hand

end
-- ==== Proof.KRun.lean ====
/-
  The run of the whole program around the tiled evaluation, for any float instance.

  @main is three stretches in a row: twelve operations on whole arrays that stack the two inputs and normalise
  the rows; the tiled evaluation of the masked row sums of exponentials (one kernel region over a 16 × 16 grid);
  thirty-four operations on whole arrays that compute the positives and finish the loss from the row sums.

  The first stretch runs over all the unscoped buffers and leaves them at what its operations compute. The region
  is entered from there: the buffer of the normalised matrix is read by BOTH input windows, so its full share is
  split into two halves, one per window, for the duration of the region, and joined again at the exit (no input
  window writes, so both halves come back at the contents they went in with); the buffer of row sums goes in whole
  and comes back at what the write-backs of the sixteen row tiles made of it; every other buffer bypasses the
  region untouched. The second stretch then runs from the buffers as the region left them.

  So every weakly fair execution terminates without a fault, the result's buffer ends at what the second stretch
  computes from the row sums the region left, and the two argument buffers — which no operation of either
  stretch writes and no window stages — end as they were launched.
-/
import proofs.«126791_j28630251995607_1_alg».proof.Proof.KBody
import proofs.«126791_j28630251995607_1_alg».proof.Proof.KKeep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁
abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev R (c : Dev nD) : sProp 𝕄 := iprop(∃ W, owes (c : Thread nD τ) (0 : CellTallies nD τ sig Unit) W)

/-- The running sums' array when the region is left. -/
def outArr (c : Dev nD) : Buf (Elt F) ((c : Thread nD τ).loc main_v10) := (dats m ρ 0 c).arrAt 2 cfg0.N

/-- Core c's buffers when the region is left: as it was entered, but for the array of row sums. -/
def V1 (c : Dev nD) : Valuation τ sig (Elt F) :=
  Function.update (StableHlo.after hostOps0 (V₀ m ρ c)) (Proc.devRef .tc main_v10) (outArr m ρ c)

def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m ρ) R

def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (V1 m ρ) R

/-- The buffers behind the windows' arrays are two: the normalised matrix and the row sums. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v9) ↦{fullShare} W main_v9) ∗ (((c : Thread nD τ).loc main_v10) ↦{fullShare} W main_v10)) := by
  unfold Pipeline.arrBufs
  rw [show Finset.univ.image (Pipeline.arrRef spec0) = insert main_v9 {main_v10} from by decide,
    bigSep_insert (by decide), bigSep_singleton]
  rfl

/-- The pipeline's arrays window by window: the matrix at half the share twice, the row sums whole. -/
theorem arrays_three (c : Dev nD) (Fv : (w : Fin cfg0.W) → Buf (Elt F) ((cfg0.win w).arr.view.loc (c : Thread nD τ))) :
    ((dats m ρ 0 c).arrays Fv : sProp 𝕄)
      = iprop((((c : Thread nD τ).loc main_v9) ↦{fullShare.left} Fv 0) ∗ (((c : Thread nD τ).loc main_v9) ↦{fullShare.right} Fv 1)
          ∗ (((c : Thread nD τ).loc main_v10) ↦{fullShare} Fv 2)) := by
  unfold Dat.arrays
  rw [bigSep_W0]
  simp only [Memref.view_whole, View.set_whole]
  rfl

/-- An input's array is never written. -/
theorem arrAt_0 (c : Dev nD) (n : ℕ) : (dats m ρ 0 c).arrAt 0 n = V m ρ c main_v9 := (dats m ρ 0 c).arrAt_in 0 rfl n
theorem arrAt_1 (c : Dev nD) (n : ℕ) : (dats m ρ 0 c).arrAt 1 n = V m ρ c main_v9 := (dats m ρ 0 c).arrAt_in 1 rfl n

/-- The whole share of the matrix's buffer is its two halves. -/
theorem v9_halves (c : Dev nD) (f : Buf (Elt F) ((c : Thread nD τ).loc main_v9)) :
    ((((c : Thread nD τ).loc main_v9) ↦{fullShare} f : sProp 𝕄))
      ⊣⊢ iprop((((c : Thread nD τ).loc main_v9) ↦{fullShare.left} f) ∗ (((c : Thread nD τ).loc main_v9) ↦{fullShare.right} f)) :=
  pointsTo_share (PosShare.mem_left_op_right fullShare)

theorem V1_v10 (c : Dev nD) : V1 m ρ c (Proc.devRef .tc main_v10) = outArr m ρ c := Function.update_self _ _ _
theorem V1_of_ne (c : Dev nD) (b : Ref sig .tc) (hb : b ≠ main_v10) :
    V1 m ρ c (Proc.devRef .tc b) = StableHlo.after hostOps0 (V₀ m ρ c) (Proc.devRef .tc b) :=
  Function.update_of_ne (fun h => hb (Proc.devRef_injective _ h)) _ _

-- the region record's fields are stated over the pipeline at its pinned tables; unifying them with the printed
-- configuration unfolds plain definitions in a metavariable's type
set_option backward.isDefEq.respectTransparency.types false in
/-- THE REGION. Entered from what the first host stretch left: the matrix's buffer is split into two half
    shares, one per input window; the row sums' buffer goes in whole; every other unscoped buffer bypasses.
    Left with the two halves rejoined (neither window wrote) and the row sums at their final contents. -/
def reg0 : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) (Pipeline.ucRefs τ sig) (V1 m ρ c) ∗ R c)
  X c := iprop(emp)
  Y c := iprop(emp)
  Z c := Pipeline.unscopedRest (Ix := Unit) (Name := ℕ) (U := UR sig nD τ) (Lvl := ℕ) spec0 c (V m ρ c)
  hentry c := by
    rw [show StableHlo.held (c : Thread nD τ) (Pipeline.ucRefs τ sig) (StableHlo.after hostOps0 (V₀ m ρ c)) = unscopedBufs c (V m ρ c) from (Pipeline.unscopedBufs_held c _).symm,
      Pipeline.unscopedBufs_split₀ cfgs 0 winFacts₀0.arr_unscoped c (V m ρ c), arrBufs_eq, arrays_three]
    iintro ⟨⟨⟨⟨H9, H10⟩, Hrest⟩, HO⟩, -, -⟩
    have hs := (v9_halves (F := F) c (V m ρ c main_v9)).1
    ihave H := hs $$ H9
    icases H with ⟨H9l, H9r⟩
    imodintro
    isplitl [H9l H9r H10]
    · isplitl [H9l]; · iexact H9l
      isplitl [H9r]; · iexact H9r
      iexact H10
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m ρ 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m ρ 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [arrays_three, arrAt_0, arrAt_1]
    iintro ⟨⟨H9l, H9r, H10⟩, HO, -, HZ⟩
    have hj := (v9_halves (F := F) c (V m ρ c main_v9)).2
    ihave H9 := hj $$ [H9l H9r]
    · isplitl [H9l] <;> iassumption
    imodintro
    isplitr [HO]
    · rw [show StableHlo.held (c : Thread nD τ) (Pipeline.ucRefs τ sig) (V1 m ρ c) = unscopedBufs c (fun b => V1 m ρ c b) from (Pipeline.unscopedBufs_held c _).symm,
        Pipeline.unscopedBufs_split₀ cfgs 0 winFacts₀0.arr_unscoped c (fun b => V1 m ρ c b), arrBufs_eq]
      isplitl [H9 H10]
      · isplitl [H9]
        · rw [V1_of_ne m ρ c main_v9 (by decide)]; iexact H9
        · rw [V1_v10]; iexact H10
      · have he : (Pipeline.unscopedRest (Ix := Unit) (Name := ℕ) (U := UR sig nD τ) (Lvl := ℕ) spec0 c (fun b => V1 m ρ c b) : sProp 𝕄)
            = Pipeline.unscopedRest (Ix := Unit) (Name := ℕ) (U := UR sig nD τ) (Lvl := ℕ) spec0 c (V m ρ c) := by
          unfold Pipeline.unscopedRest
          exact bigSep_congr fun b hb => by
            have hne : b ≠ main_v10 := fun h => (Finset.mem_sdiff.mp hb).2 (h ▸ Finset.mem_image.mpr ⟨2, Finset.mem_univ _, rfl⟩)
            show (((c : Thread nD τ).loc b) ↦{fullShare} V1 m ρ c (Proc.devRef .tc b) : sProp 𝕄) = _
            rw [V1_of_ne m ρ c b hne]
        rw [he]; iexact HZ
    · unfold Pipeline.Dat.owesAt Pipeline.owesWithin
      icases HO with ⟨%W, -, HO⟩; iexists W; iexact HO

/-- @main as the list of the three: the first host stretch, the region, the second host stretch. -/
abbrev segs : List (Pipeline.Seg (pcfgs (F := F)) adm (dats m ρ) () defs₀ 𝒱₀ L lv) :=
  [.host (seg0 m ρ), .region (reg0 m ρ), .host (seg1 m ρ)]

/-- The launch element: the pipeline library's at the staging cells. -/
def u₀ : UR sig nD τ := initOf (Pipeline.cells cfgs cellOf_inj) (Pipeline.launchToks cfgs cellOf_inj)

/-- What every final state satisfies: the result's buffer holds what the second host stretch computes from the
    buffers the region left, and both arguments are as launched. -/
def QC : PUnit × MemSt nD τ sig (Elt F) → Prop := fun r => ∀ c : Dev nD,
  r.2.mem ((c : Thread nD τ).loc main_v36) = StableHlo.after hostOps1 (V1 m ρ c) (Proc.devRef .tc main_v36)
  ∧ r.2.mem ((c : Thread nD τ).loc main_arg0) = m ((c : Thread nD τ).loc main_arg0)
  ∧ r.2.mem ((c : Thread nD τ).loc main_arg1) = m ((c : Thread nD τ).loc main_arg1)

theorem end_arg0 (c : Dev nD) : StableHlo.after hostOps1 (V1 m ρ c) (Proc.devRef .tc main_arg0) = m ((c : Thread nD τ).loc main_arg0) := by
  rw [tail_arg0, V1_of_ne m ρ c main_arg0 (by decide), pre_arg0]
theorem end_arg1 (c : Dev nD) : StableHlo.after hostOps1 (V1 m ρ c) (Proc.devRef .tc main_arg1) = m ((c : Thread nD τ).loc main_arg1) := by
  rw [tail_arg1, V1_of_ne m ρ c main_arg1 (by decide), pre_arg1]

theorem mem_uc (b : Ref sig .tc) (hb : b.isScoped = false) : Proc.devRef .tc b ∈ Pipeline.ucRefs τ sig := by
  unfold Pipeline.ucRefs StableHlo.tcRefs
  exact Finset.mem_filter.mpr ⟨Finset.mem_map.mpr ⟨b, Finset.mem_univ _, rfl⟩, by simp [hb]⟩

-- the launch theorem's implicit arguments are found by unifying its conclusion with this one, which takes
-- unfolding plain definitions in a metavariable's type
set_option backward.isDefEq.respectTransparency.types false in
/-- At the compiled mesh, for any float values, from any memory with zero counters: every weakly fair execution of
    @main terminates, nothing faulting, and every final state has the result at what the second host stretch
    computes from the row sums the region left and both arguments unchanged. -/
theorem run_main : θ_run defs (onTc (τ := τ) (main (F := F))) (s₀ m ρ) (QC m ρ) :=
  Pipeline.θ_run_regions_kit (pcfgs (F := F)) adm (dats m ρ) () cellOf_inj EP defs₀ 𝒱₀ L lv m ρ main (segs m ρ)
    (fun c Q => by rw [main_segs adm (dats m ρ) () 𝒱₀ L lv (seg0 m ρ) (seg1 m ρ) (reg0 m ρ) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      imodintro
      isplitl [Hu]
      · iapply (show (ownU _ : sProp 𝕄) ⊢ BI.own (emb₁ (initOf (Pipeline.cells (Pipeline.pin (pcfgs (F := F)) adm) cellOf_inj)
            (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => StableHlo.held (c : Thread nD τ) (Pipeline.ucRefs τ sig) (StableHlo.after hostOps1 (V1 m ρ c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => s.mem ((c : Thread nD τ).loc main_v36) = StableHlo.after hostOps1 (V1 m ρ c) (Proc.devRef .tc main_v36)
      ∧ s.mem ((c : Thread nD τ).loc main_arg0) = m ((c : Thread nD τ).loc main_arg0)
      ∧ s.mem ((c : Thread nD τ).loc main_arg1) = m ((c : Thread nD τ).loc main_arg1))
    (hfin := fun c s' => by
      unfold StableHlo.held
      iintro ⟨Hh, HSI⟩
      ihave Hr := (pointsTo_read_all (Pipeline.ucRefs τ sig) (fun b => ((c : Thread nD τ).1, b)) (fun b => StableHlo.after hostOps1 (V1 m ρ c) b) s') $$ [Hh HSI]
      · isplitl [Hh] <;> iassumption
      icases Hr with ⟨%ha, HSI⟩
      imodintro
      isplitr
      · ipureintro
        exact ⟨ha _ (mem_uc main_v36 rfl), (ha _ (mem_uc main_arg0 rfl)).trans (end_arg0 m ρ c), (ha _ (mem_uc main_arg1 rfl)).trans (end_arg1 m ρ c)⟩
      iexact HSI)
    (hQ := fun _ h => h)

end Cert.KernelIdeal.Hand

end
-- ==== Proof.Terms.lean ====
/-
  The operation chains the two programs share, written once over literal shapes, for any float instance.

  Both programs normalise rows the same way: a row `x` becomes `x / max (sqrt (∑ₖ xₖ²), ε)` with
  `ε` the float nearest 1e-8. `fn32` is that applied to the 8192 rows obtained by stacking the two
  inputs; `fnBf` is the same matrix after the change of float format the tiled evaluation reads it in;
  `pos` is, for each of the 4096 row pairs, the inner product of the two normalised rows, listed twice.
  The two programs differ only in how they finish from the positives `P` and the denominators `D`:
  `tailSub` averages `P / ½ − log D` and negates, `tailLog` averages `log (exp (P / ½) / D)` and negates.
  The side conditions of the shape-changing operations are decided here once, on the literal shapes.
-/
import Idealize.ShloMosaic.PureOps
import Idealize.ShloMosaic.PureOps.Ideal

noncomputable section

namespace Cert.Terms

open Idealize.ShloMosaic

abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S4096 : Shape := ⟨1, ![4096]⟩
abbrev S4096x1 : Shape := ⟨2, ![4096, 1]⟩

theorem hcat2 : Shape.Concatenates [S4096x256, S4096x256] S8192x256 0 := by decide
theorem hred8 : S8192x256.ReducesTo [1] S8192 := by decide
theorem hS_ : 0 < S_.numel := by decide
theorem hb8a : S8192.BroadcastsInDim S8192x1 (![0] : Fin 1 → Fin S8192x1.rank) := by decide
theorem hb8b : S_.BroadcastsInDim S8192x1 (![] : Fin 0 → Fin S8192x1.rank) := by decide
theorem hb8c : S8192x1.BroadcastsInDim S8192x256 (![0, 1] : Fin 2 → Fin S8192x256.rank) := by decide
theorem hbits : FTy.bits .bf16 < FTy.bits .f32 := by decide
theorem hred4 : S4096x256.ReducesTo [1] S4096 := by decide
theorem hb4a : S4096.BroadcastsInDim S4096x1 (![0] : Fin 1 → Fin S4096x1.rank) := by decide
theorem hb4b : S_.BroadcastsInDim S4096x1 (![] : Fin 0 → Fin S4096x1.rank) := by decide
theorem hb4c : S4096x1.BroadcastsInDim S4096x256 (![0, 1] : Fin 2 → Fin S4096x256.rank) := by decide
theorem hcat1 : Shape.Concatenates [S4096, S4096] S8192 0 := by decide
theorem hbS : S_.BroadcastsInDim S8192 (![] : Fin 0 → Fin S8192.rank) := by decide
theorem hredAll : S8192.ReducesTo [0] S_ := by decide

variable {F : FTy → Type} [FloatOps F]

/-- The 8192 rows normalised: each row divided by the larger of its Euclidean norm and ε. -/
def norm8 (f : FVec F S8192x256 .f32) : FVec F S8192x256 .f32 :=
  Host.divf f (broadcastInDim S8192x256 ![0, 1] hb8c
    (maximumf (Host.sqrt (broadcastInDim S8192x1 ![0] hb8a (Host.reduceAdd (mulf f f) (constant S_ .f32 0x00000000#32) hred8 hS_)))
      (broadcastInDim S8192x1 ![] hb8b (constant S_ .f32 0x322BCC77#32))))

/-- The same for 4096 rows. -/
def norm4 (z : FVec F S4096x256 .f32) : FVec F S4096x256 .f32 :=
  Host.divf z (broadcastInDim S4096x256 ![0, 1] hb4c
    (maximumf (Host.sqrt (broadcastInDim S4096x1 ![0] hb4a (Host.reduceAdd (mulf z z) (constant S_ .f32 0x00000000#32) hred4 hS_)))
      (broadcastInDim S4096x1 ![] hb4b (constant S_ .f32 0x322BCC77#32))))

/-- The two inputs stacked and normalised row by row. -/
def fn32 (a0 a1 : FVec F S4096x256 .f32) : FVec F S8192x256 .f32 :=
  norm8 (concatenate S8192x256 0 [⟨S4096x256, a0⟩, ⟨S4096x256, a1⟩] hcat2)

/-- The normalised matrix in the narrower float format the tiled evaluation reads. -/
def fnBf (a0 a1 : FVec F S4096x256 .f32) : FVec F S8192x256 .bf16 :=
  truncf .bf16 (fn32 a0 a1) hbits

/-- The positives: the inner product of each pair of normalised rows, listed twice. -/
def pos (a0 a1 : FVec F S4096x256 .f32) : FVec F S8192 .f32 :=
  let p : FVec F S4096 .f32 := Host.reduceAdd (mulf (norm4 a0) (norm4 a1)) (constant S_ .f32 0x00000000#32) hred4 hS_
  concatenate S8192 0 [⟨S4096, p⟩, ⟨S4096, p⟩] hcat1

/-- Minus the mean of `P / ½ − log D`. -/
def tailSub (P D : FVec F S8192 .f32) : FVec F S_ .f32 :=
  Host.negf (Host.divf
    (Host.reduceAdd (subf (Host.divf P (broadcastInDim S8192 ![] hbS (constant S_ .f32 0x3F000000#32))) (Host.log D))
      (constant S_ .f32 0x00000000#32) hredAll hS_)
    (constant S_ .f32 0x46000000#32))

/-- Minus the mean of `log (exp (P / ½) / D)`. -/
def tailLog (P D : FVec F S8192 .f32) : FVec F S_ .f32 :=
  Host.negf (Host.divf
    (Host.reduceAdd (Host.log (Host.divf (Host.exp (Host.divf P (broadcastInDim S8192 ![] hbS (constant S_ .f32 0x3F000000#32)))) D))
      (constant S_ .f32 0x00000000#32) hredAll hS_)
    (constant S_ .f32 0x46000000#32))

end Cert.Terms

end
-- ==== Proof.KValHost.lean ====
/-
  The operations on whole arrays that run before and after the tiled evaluation, as functions of the buffers they read.

  Before it, twelve operations stack the two inputs, divide each row by the larger of its Euclidean norm and ε, and
  change the float format: the buffer the tiles are cut from holds that matrix. After it, thirty-four operations
  normalise each input by itself, take the inner products of corresponding rows (the positives, listed twice),
  divide by one half, subtract the logarithm of the denominators the tiled evaluation left, average and negate.
  Neither stretch writes an input buffer, and the second does not write the buffer of denominators, so each of
  these reaches its readers as it was.
-/
import proofs.«126791_j28630251995607_1_alg».proof.Proof.Gen.KernelIdeal.Launch
import proofs.«126791_j28630251995607_1_alg».proof.Proof.Terms
import Idealize.ShloMosaic.Lib.StableHlo.Run

noncomputable section

namespace Cert.KernelIdeal.Val

open Idealize.ShloMosaic Idealize.ShloMosaic.TcCoe Idealize.SL.Sem Idealize.ShloMosaic.StableHlo Cert.KernelIdeal Cert.KernelIdeal.Gen

variable {F : FTy → Type} [FloatOps F]

/-! ## What the host operations write -/

/-- The buffers written before the tiled evaluation. -/
abbrev hostOps0_W : List (Ref sig .tc) :=
  [main_v0, main_v1, main_cst, main_v2, main_v3, main_v4, main_cst_0, main_v5, main_v6, main_v7, main_v8, main_v9]

theorem hostOps0_writes : (hostOps0 : List (HloOp τ sig (Elt F))).Forall fun op =>
    op.writes ⊆ (hostOps0_W.map (Proc.devRef (τ := τ) .tc)).toFinset := by
  simp only [List.Forall]
  repeat' apply And.intro
  all_goals
    simp only [StableHlo.nullary_writes, StableHlo.unary_writes, StableHlo.binary_writes, Finset.singleton_subset_iff, List.mem_toFinset]
    exact List.mem_map_of_mem (by decide)

/-- The buffers written after it. -/
abbrev hostOps1_W : List (Ref sig .tc) :=
  [main_v11, main_cst_1, main_v12, main_v13, main_v14, main_cst_2, main_v15, main_v16, main_v17, main_v18, main_v19, main_cst_3,
   main_v20, main_v21, main_v22, main_cst_4, main_v23, main_v24, main_v25, main_v26, main_v27, main_cst_5, main_v28, main_v29,
   main_cst_6, main_v30, main_v31, main_v32, main_v33, main_cst_7, main_v34, main_cst_8, main_v35, main_v36]

theorem hostOps1_writes : (hostOps1 : List (HloOp τ sig (Elt F))).Forall fun op =>
    op.writes ⊆ (hostOps1_W.map (Proc.devRef (τ := τ) .tc)).toFinset := by
  simp only [List.Forall]
  repeat' apply And.intro
  all_goals
    simp only [StableHlo.nullary_writes, StableHlo.unary_writes, StableHlo.binary_writes, Finset.singleton_subset_iff, List.mem_toFinset]
    exact List.mem_map_of_mem (by decide)

/-- A buffer outside the first list is unchanged by the operations before the tiled evaluation. -/
theorem pre_keeps (W : Valuation τ sig (Elt F)) (r : Ref sig .tc) (h : r ∉ hostOps0_W) :
    StableHlo.after (hostOps0 (F := F)) W (Proc.devRef .tc r) = W (Proc.devRef .tc r) :=
  StableHlo.after_of_writes_sub hostOps0 W hostOps0_writes h

/-- A buffer outside the second list is unchanged by the operations after it. -/
theorem tail_keeps (W : Valuation τ sig (Elt F)) (r : Ref sig .tc) (h : r ∉ hostOps1_W) :
    StableHlo.after (hostOps1 (F := F)) W (Proc.devRef .tc r) = W (Proc.devRef .tc r) :=
  StableHlo.after_of_writes_sub hostOps1 W hostOps1_writes h

theorem pre_arg0 (W : Valuation τ sig (Elt F)) :
    StableHlo.after (hostOps0 (F := F)) W (Proc.devRef .tc main_arg0) = W (Proc.devRef .tc main_arg0) := pre_keeps W main_arg0 (by decide)
theorem pre_arg1 (W : Valuation τ sig (Elt F)) :
    StableHlo.after (hostOps0 (F := F)) W (Proc.devRef .tc main_arg1) = W (Proc.devRef .tc main_arg1) := pre_keeps W main_arg1 (by decide)
theorem pre_v10 (W : Valuation τ sig (Elt F)) :
    StableHlo.after (hostOps0 (F := F)) W (Proc.devRef .tc main_v10) = W (Proc.devRef .tc main_v10) := pre_keeps W main_v10 (by decide)
theorem tail_arg0 (W : Valuation τ sig (Elt F)) :
    StableHlo.after (hostOps1 (F := F)) W (Proc.devRef .tc main_arg0) = W (Proc.devRef .tc main_arg0) := tail_keeps W main_arg0 (by decide)
theorem tail_arg1 (W : Valuation τ sig (Elt F)) :
    StableHlo.after (hostOps1 (F := F)) W (Proc.devRef .tc main_arg1) = W (Proc.devRef .tc main_arg1) := tail_keeps W main_arg1 (by decide)
theorem tail_v9 (W : Valuation τ sig (Elt F)) :
    StableHlo.after (hostOps1 (F := F)) W (Proc.devRef .tc main_v9) = W (Proc.devRef .tc main_v9) := tail_keeps W main_v9 (by decide)
theorem tail_v10 (W : Valuation τ sig (Elt F)) :
    StableHlo.after (hostOps1 (F := F)) W (Proc.devRef .tc main_v10) = W (Proc.devRef .tc main_v10) := tail_keeps W main_v10 (by decide)

/-! ## What they compute -/

/-- Before the tiled evaluation: the buffer it reads holds the stacked inputs, normalised row by row, in the
    narrower float format. -/
theorem pre_v9 (W : Valuation τ sig (Elt Ideal)) :
    StableHlo.after (hostOps0 (F := Ideal)) W (Proc.devRef .tc main_v9)
      = Cert.Terms.fnBf (F := Ideal) (W (Proc.devRef .tc main_arg0)) (W (Proc.devRef .tc main_arg1)) := by
  after_results
  rfl

/-- After it: the result is minus the mean of the positives over one half less the logarithm of the denominators the
    tiled evaluation left. -/
theorem tail_v36 (W : Valuation τ sig (Elt Ideal)) :
    StableHlo.after (hostOps1 (F := Ideal)) W (Proc.devRef .tc main_v36)
      = Cert.Terms.tailSub (F := Ideal) (Cert.Terms.pos (F := Ideal) (W (Proc.devRef .tc main_arg0)) (W (Proc.devRef .tc main_arg1)))
          (W (Proc.devRef .tc main_v10)) := by
  after_results_simp
  rfl

end Cert.KernelIdeal.Val
end
-- ==== Proof.KValPay.lean ====
/-
  The tiled evaluation's arithmetic at one entry, read at the extended reals.

  One grid point (i, j) handles the 512 × 512 tile of the similarity matrix whose rows are the rows of row block i
  and whose columns are the rows of column block j. Its entry (r, c) is the inner product of row r of the first block
  with row c of the second; the body doubles it, exponentiates, and replaces the entry by zero when the global row
  number 512·i + r equals the global column number 512·j + c. The row sums of that masked tile are added to the
  running sums. The numbers 512·i + r and 512·j + c are computed in 32-bit words; they stay below 8192, so the
  words never wrap and comparing the words is comparing the numbers.
-/
import proofs.«126791_j28630251995607_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.ValueIdx Cert.KernelIdeal Cert.KernelIdeal.Gen
open scoped BigOperators

/-- The zero block the running sums restart from. -/
theorem pay1_apply (j : S512.Idx) : k0_pay1 (F := Ideal) j = 0 := by
  unfold k0_pay1
  exact Ideal.ofBits_zero_f32

/-! ## The tile's Gram entries -/

theorem lhs_0 (i : S512x512.Idx) (q : dot_S512x256_S512x256_S512x512_1_1_0_0_n_n.contr.Idx) : (dot_S512x256_S512x256_S512x512_1_1_0_0_n_n.lhsIdx i q 0).val = (i 0).val := by
  unfold DotDims.lhsIdx
  rw [dif_neg (show ¬(0 : Fin S512x256.rank) ∈ dot_S512x256_S512x256_S512x512_1_1_0_0_n_n.lhsBatch by decide), dif_pos (show (0 : Fin S512x256.rank) ∈ dot_S512x256_S512x256_S512x512_1_1_0_0_n_n.lhsNonContracting by decide)]
  rfl
theorem lhs_1 (i : S512x512.Idx) (q : dot_S512x256_S512x256_S512x512_1_1_0_0_n_n.contr.Idx) : (dot_S512x256_S512x256_S512x512_1_1_0_0_n_n.lhsIdx i q 1).val = (q ⟨0, by decide⟩).val :=
  dot_S512x256_S512x256_S512x512_1_1_0_0_n_n.lhsIdx_val_of_single rfl i q
theorem rhs_0 (i : S512x512.Idx) (q : dot_S512x256_S512x256_S512x512_1_1_0_0_n_n.contr.Idx) : (dot_S512x256_S512x256_S512x512_1_1_0_0_n_n.rhsIdx i q 0).val = (i 1).val := by
  unfold DotDims.rhsIdx
  rw [dif_neg (show ¬(0 : Fin S512x256.rank) ∈ dot_S512x256_S512x256_S512x512_1_1_0_0_n_n.rhsBatch by decide), dif_pos (show (0 : Fin S512x256.rank) ∈ dot_S512x256_S512x256_S512x512_1_1_0_0_n_n.rhsNonContracting by decide)]
  rfl
theorem rhs_1 (i : S512x512.Idx) (q : dot_S512x256_S512x256_S512x512_1_1_0_0_n_n.contr.Idx) : (dot_S512x256_S512x256_S512x512_1_1_0_0_n_n.rhsIdx i q 1).val = (q ⟨0, by decide⟩).val :=
  dot_S512x256_S512x256_S512x512_1_1_0_0_n_n.rhsIdx_val_of_single rfl i q

/-- The product of a row block with the transpose of a column block, into a zero accumulator: entry (r, c) is the
    inner product of row r of the first with row c of the second. -/
theorem mm_apply (x0 x1 : FVec Ideal S512x256 .bf16) (r c : Fin 512) :
    matmul dot_S512x256_S512x256_S512x512_1_1_0_0_n_n none x0 x1 (constant (F := Ideal) S512x512 .f32 0x00000000#32) (ix2 r c)
      = ∑ k : Fin 256, x0 (ix2 r k) * x1 (ix2 c k) := by
  simp only [matmul]
  rw [Ideal.matmul_constant_zero_apply, ← Equiv.sum_comp (contrEquiv1 dot_S512x256_S512x256_S512x512_1_1_0_0_n_n 256 rfl rfl).symm]
  refine Finset.sum_congr rfl fun k _ => ?_
  have hk := contrEquiv1_symm_val dot_S512x256_S512x256_S512x512_1_1_0_0_n_n 256 rfl rfl k
  have el : dot_S512x256_S512x256_S512x512_1_1_0_0_n_n.lhsIdx (ix2 r c) ((contrEquiv1 dot_S512x256_S512x256_S512x512_1_1_0_0_n_n 256 rfl rfl).symm k) = ix2 r k :=
    funext fun a => Fin.ext (by
      match a with
      | ⟨0, _⟩ => exact lhs_0 _ _
      | ⟨1, _⟩ => exact (lhs_1 _ _).trans hk)
  have er : dot_S512x256_S512x256_S512x512_1_1_0_0_n_n.rhsIdx (ix2 r c) ((contrEquiv1 dot_S512x256_S512x256_S512x512_1_1_0_0_n_n 256 rfl rfl).symm k) = ix2 c k :=
    funext fun a => Fin.ext (by
      match a with
      | ⟨0, _⟩ => exact rhs_0 _ _
      | ⟨1, _⟩ => exact (rhs_1 _ _).trans hk)
  rw [el, er]

/-! ## The diagonal mask: global row number against global column number -/

/-- A tile's offset plus a coordinate inside it, as a 32-bit word: no wrap, since the sum stays below 8192. -/
theorem word_eq (a r : ℕ) (ha : a < 16) (hr : r < 512) :
    IntOp.addi (Scalar.muli (BitVec.ofNat 32 a) 512#32) (BitVec.ofNat 32 r) = BitVec.ofNat 32 (512 * a + r) := by
  apply BitVec.eq_of_toNat_eq
  simp only [IntOp.addi, Scalar.muli, IntOp.muli, BitVec.toNat_add, BitVec.toNat_mul, BitVec.toNat_ofNat]
  omega

/-- Comparing two such words is comparing the numbers. -/
theorem mask_select {α : Type} (a b r c : ℕ) (ha : a < 16) (hb : b < 16) (hr : r < 512) (hc : c < 512) (X Y : α) :
    Scalar.select (IntOp.cmpi .eq (BitVec.ofNat 32 (512 * a + r)) (BitVec.ofNat 32 (512 * b + c))) X Y
      = if 512 * a + r = 512 * b + c then X else Y := by
  show (if BitVec.ofBool (BitVec.ofNat 32 (512 * a + r) == BitVec.ofNat 32 (512 * b + c)) = 1#1 then X else Y) = _
  by_cases h : 512 * a + r = 512 * b + c
  · rw [h, if_pos rfl]; simp
  · have hne : BitVec.ofNat 32 (512 * a + r) ≠ BitVec.ofNat 32 (512 * b + c) := by
      intro e
      have e' := congrArg BitVec.toNat e
      simp only [BitVec.toNat_ofNat] at e'
      omega
    have hbq : (BitVec.ofNat 32 (512 * a + r) == BitVec.ofNat 32 (512 * b + c)) = false := by
      rw [beq_eq_false_iff_ne]; exact hne
    rw [if_neg h, hbq]
    exact if_neg (by decide)

/-- The literal 2.0. -/
theorem ofBits_two : Ideal.ofBits .f32 0x40000000#32 = 2 := by
  have h : Ideal.ofBits .f32 0x40000000#32 = ((2 : ℝ) : EReal) := by
    simp [Ideal.ofBits, Ideal.ieee, -EReal.coe_mul]; norm_num
  rw [h]
  rfl

/-! ## The lane sum -/

theorem lane_sum (src : FVec Ideal S512x512 .f32) (hφ : FKind.Formats .f32)
    (hacc : (0x00000000#32 : BitVec (FTy.bits .f32)) = FKind.add.neutral .f32 hφ) (r : Fin 512) :
    multiReduction .add [1] S512 src 0x00000000#32 reduces_S512x512_S512 hφ hacc (ix1 r) = ∑ c : Fin 512, src (ix2 r c) := by
  refine (Ideal.multiReduction_add_single src _ reduces_S512x512_S512 hφ hacc (ix1 r)).trans ?_
  show ∑ c : Fin 512, src (reduces_S512x512_S512.lift (ix1 r) c) = _
  refine Finset.sum_congr rfl fun c _ => congrArg src ?_
  funext a
  apply Fin.ext
  match a with
  | ⟨0, _⟩ => rfl
  | ⟨1, _⟩ => rfl

/-- One entry of the masked tile: zero on the global diagonal, the exponential of twice the Gram entry elsewhere. -/
theorem tile_apply (a b : ℕ) (ha : a < 16) (hb : b < 16) (M : FVec Ideal S512x512 .f32) (r c : Fin 512) :
    select (cmpi .eq (addi (broadcast S512x512 (Scalar.muli (BitVec.ofNat 32 a) 512#32)) (iota .tc S512x512 32 [0] iota_S512x512_d0_w32))
        (addi (broadcast S512x512 (Scalar.muli (BitVec.ofNat 32 b) 512#32)) (iota .tc S512x512 32 [1] iota_S512x512_d1_w32)))
      (broadcast S512x512 (FloatOps.ofBits (F := Ideal) .f32 0x00000000#32))
      (exp (mulf M (broadcast S512x512 (FloatOps.ofBits (F := Ideal) .f32 0x40000000#32)))) (ix2 r c)
      = if 512 * a + r.val = 512 * b + c.val then (0 : EReal) else Ideal.exp (M (ix2 r c) * 2) := by
  show Scalar.select (IntOp.cmpi .eq
      (IntOp.addi (Scalar.muli (BitVec.ofNat 32 a) 512#32) (iota .tc S512x512 32 [0] iota_S512x512_d0_w32 (ix2 r c)))
      (IntOp.addi (Scalar.muli (BitVec.ofNat 32 b) 512#32) (iota .tc S512x512 32 [1] iota_S512x512_d1_w32 (ix2 r c))))
    (Ideal.ofBits .f32 0x00000000#32) (Ideal.exp (M (ix2 r c) * Ideal.ofBits .f32 0x40000000#32)) = _
  rw [iota_single_apply, iota_single_apply]
  show Scalar.select (IntOp.cmpi .eq (IntOp.addi _ (BitVec.ofNat 32 r.val)) (IntOp.addi _ (BitVec.ofNat 32 c.val))) _ _ = _
  rw [word_eq a r.val ha r.isLt, word_eq b c.val hb c.isLt, mask_select a b r.val c.val ha hb r.isLt c.isLt,
    Ideal.ofBits_zero_f32, ofBits_two]

/-- The body's new running sums: the sums read, plus the masked tile's row sums. -/
theorem pay2_apply (i : grid0.Coords) (x0 x1 : Vec Ideal S512x256 .bf16) (prev : Vec Ideal S512 .f32) (r : Fin 512) :
    k0_pay2 (F := Ideal) i x0 x1 prev (ix1 r) = prev (ix1 r) + ∑ c : Fin 512,
      (if 512 * (i 0).val + r.val = 512 * (i 1).val + c.val then (0 : EReal)
       else Ideal.exp ((∑ k : Fin 256, x0 (ix2 r k) * x1 (ix2 c k)) * 2)) := by
  unfold k0_pay2
  simp only [shapeCast_self]
  refine congrArg (prev (ix1 r) + ·) ?_
  refine (lane_sum _ _ _ r).trans ?_
  refine Finset.sum_congr rfl fun c _ => ?_
  refine (tile_apply (i 0).val (i 1).val (i 0).isLt (i 1).isLt _ r c).trans ?_
  rw [mm_apply]

end Cert.KernelIdeal.Val
end
-- ==== Proof.Spec.lean ====
/-
  The function both programs are compared through, stated over plain index types and the extended reals,
  with no program in sight.

  Write `A` for the matrix of the 8192 normalised rows (256 features each). Row `r` and row `c` have the
  Gram entry `gram A r c = ∑ k, A r k · A c k`, their cosine similarity. The loss's denominator for row `r`
  is the sum over every OTHER row `c` of `exp (2 · gram A r c)` (the temperature is 1/2, so dividing a
  similarity by it doubles it); the entry `c = r` contributes zero. `den` states it as one sum over all
  8192 columns with the diagonal term replaced by zero, which is the form a tiled evaluation (sixteen
  column tiles of 512, added one after the other into a running row sum) and an untiled one (one row sum
  of the masked 8192 × 8192 matrix) both reduce to: addition of extended reals is commutative and
  associative, so the grouping of the columns does not matter.
-/
import Idealize.ShloMosaic.PureOps.Ideal
import Idealize.ShloMosaic.Lib.ValueIdx

noncomputable section

namespace Cert.Spec

open Idealize.ShloMosaic Idealize.ShloMosaic.ValueIdx
open scoped BigOperators

/-- The Gram entry of rows `r` and `c` of a matrix of 8192 rows and 256 columns. -/
def gram (A : (⟨2, ![8192, 256]⟩ : Shape).Idx → EReal) (r c : Fin 8192) : EReal :=
  ∑ k : Fin 256, A (ix2 r k) * A (ix2 c k)

/-- Row `r`'s masked sum of exponentials: over all columns `c`, `exp (2 · gram A r c)`, the diagonal
    entry `c = r` replaced by zero. -/
def den (A : (⟨2, ![8192, 256]⟩ : Shape).Idx → EReal) (r : Fin 8192) : EReal :=
  ∑ c : Fin 8192, if r = c then (0 : EReal) else Ideal.exp (gram A r c * 2)

/-- The same as an array over the one-axis index type of 8192 entries. -/
def denVec (A : (⟨2, ![8192, 256]⟩ : Shape).Idx → EReal) : (⟨1, ![8192]⟩ : Shape).Idx → EReal :=
  fun j => den A (j 0)

end Cert.Spec

end
-- ==== Proof.KValAcc.lean ====
/-
  The running row sums in closed form.

  Write A for the matrix of the 8192 normalised rows. At grid point n = 16·i + j the body reads row block i of A
  (rows 512·i … 512·i + 511) as its first operand and row block j as its second, and adds to running sum r the sum
  over the 512 columns c of the masked entry for global row 512·i + r and global column 512·j + c: zero when the two
  numbers are equal, otherwise the exponential of twice the inner product of the two rows. The sums restart from
  zero at j = 0. So after point 16·i + j the running sum r is the sum of the masked entries of row 512·i + r over
  the columns below 512·(j + 1) (induction on the point), and after the last column tile, j = 15, it is the sum over
  all 8192 columns: the denominator of row 512·i + r. Only associativity and commutativity of addition of
  extended reals are used, so nothing needs to be finite.
-/
import proofs.«126791_j28630251995607_1_alg».proof.Proof.KValPay
import proofs.«126791_j28630251995607_1_alg».proof.Proof.KAcc
import proofs.«126791_j28630251995607_1_alg».proof.Proof.Spec

noncomputable section

namespace Cert.KernelIdeal.Val

open Idealize.ShloMosaic Idealize.ShloMosaic.ValueIdx Cert.KernelIdeal Cert.KernelIdeal.Gen Cert.KernelIdeal.Hand
open scoped BigOperators

/-! ## Rows and row blocks of the normalised matrix, over plain numbers -/

/-- Row `x` of the matrix (the row number taken modulo 8192, so that it is defined for every number). -/
def rowN (A : Vec Ideal S8192x256 .bf16) (x : ℕ) (k : Fin 256) : EReal :=
  A (ix2 (⟨x % 8192, Nat.mod_lt _ (by decide)⟩ : Fin 8192) k)

theorem rowN_lt (A : Vec Ideal S8192x256 .bf16) (x : ℕ) (hx : x < 8192) (k : Fin 256) :
    rowN A x k = A (ix2 (⟨x, hx⟩ : Fin 8192) k) :=
  congrArg (fun p : Fin 8192 => A (ix2 p k)) (Fin.ext (Nat.mod_eq_of_lt hx))

/-- Row block `i`: rows 512·i … 512·i + 511. -/
def rowBlk (A : Vec Ideal S8192x256 .bf16) (i : ℕ) : Vec Ideal S512x256 .bf16 :=
  fun j => rowN A (512 * i + (j 0).val) ⟨(j 1).val, (j 1).isLt⟩

theorem rowBlk_apply (A : Vec Ideal S8192x256 .bf16) (i : ℕ) (r : Fin 512) (k : Fin 256) :
    rowBlk A i (ix2 r k) = rowN A (512 * i + r.val) k := rfl

/-- The row-tile operand at grid point `n`. -/
def tileRow (A : Vec Ideal S8192x256 .bf16) (n : ℕ) : Vec Ideal S512x256 .bf16 := rowBlk A (n / 16)
/-- The column-tile operand at grid point `n`. -/
def tileCol (A : Vec Ideal S8192x256 .bf16) (n : ℕ) : Vec Ideal S512x256 .bf16 := rowBlk A (n % 16)

/-- One masked entry: zero when the row number equals the column number, else the exponential of twice the Gram entry. -/
def term (A : Vec Ideal S8192x256 .bf16) (x y : ℕ) : EReal :=
  if x = y then 0 else Ideal.exp ((∑ k : Fin 256, rowN A x k * rowN A y k) * 2)

/-! ## One grid point -/

/-- The grid is walked row tile by row tile. -/
theorem coords_val : ∀ t : Fin grid0.N, ((grid0.coords t) 0).val = t.val / 16 ∧ ((grid0.coords t) 1).val = t.val % 16 := by
  decide +kernel

theorem step_apply (A : Vec Ideal S8192x256 .bf16) (n : ℕ) (h : n < grid0.N) (prev : Vec Ideal S512 .f32) (r : Fin 512) :
    k0_pay2 (F := Ideal) (grid0.coords ⟨n, h⟩) (tileRow A n) (tileCol A n) prev (ix1 r)
      = prev (ix1 r) + ∑ c : Fin 512, term A (512 * (n / 16) + r.val) (512 * (n % 16) + c.val) := by
  rw [pay2_apply]
  obtain ⟨h0, h1⟩ := coords_val ⟨n, h⟩
  rw [h0, h1]
  rfl

/-- The columns below 512·(j+1) are those below 512·j and the 512 of column tile j. -/
theorem blk_sum (f : ℕ → EReal) (j : ℕ) :
    ∑ y ∈ Finset.range (512 * (j + 1)), f y = ∑ y ∈ Finset.range (512 * j), f y + ∑ c : Fin 512, f (512 * j + c.val) := by
  rw [show 512 * (j + 1) = 512 * j + 512 by ring, Finset.sum_range_add, Fin.sum_univ_eq_sum_range (fun x => f (512 * j + x)) 512]

/-- At the first column tile the columns so far are just that tile's. -/
theorem reset_sum (f : ℕ → EReal) (j : ℕ) (hj : j = 0) :
    ∑ c : Fin 512, f (512 * j + c.val) = ∑ y ∈ Finset.range (512 * (j + 1)), f y := by
  subst hj
  rw [blk_sum, Nat.mul_zero, Finset.range_zero, Finset.sum_empty, zero_add]

/-- A point at the first column tile: the sums restart from zero, so they are that tile's masked row sums. -/
theorem step_reset (A : Vec Ideal S8192x256 .bf16) (n : ℕ) (h : n < grid0.N) (h0 : n % 16 = 0) (r : Fin 512) :
    k0_pay2 (F := Ideal) (grid0.coords ⟨n, h⟩) (tileRow A n) (tileCol A n) (k0_pay1 (F := Ideal)) (ix1 r)
      = ∑ y ∈ Finset.range (512 * (n % 16 + 1)), term A (512 * (n / 16) + r.val) y := by
  refine (step_apply A n h _ r).trans ?_
  refine ((congrArg (· + ∑ c : Fin 512, term A (512 * (n / 16) + r.val) (512 * (n % 16) + c.val)) (pay1_apply (ix1 r))).trans
    (zero_add _)).trans ?_
  exact reset_sum (fun y => term A (512 * (n / 16) + r.val) y) (n % 16) h0

/-! ## The running sums after any grid point -/

/-- After point n = 16·i + j the running sum of local row r is the sum, over the columns below 512·(j+1), of the
    masked entries of global row 512·i + r. -/
theorem acc_inv (A : Vec Ideal S8192x256 .bf16) : ∀ (n : ℕ) (h : n < grid0.N) (r : Fin 512),
    accG (tileRow A) (tileCol A) n h (ix1 r) = ∑ y ∈ Finset.range (512 * (n % 16 + 1)), term A (512 * (n / 16) + r.val) y := by
  intro n
  induction n with
  | zero =>
    intro h r
    rw [accG_reset _ _ 0 h rfl]
    exact step_reset A 0 h rfl r
  | succ n ih =>
    intro h r
    by_cases h0 : (n + 1) % 16 = 0
    · rw [accG_reset _ _ _ h h0]
      exact step_reset A (n + 1) h h0 r
    · rw [accG_step _ _ _ h h0]
      refine (step_apply A (n + 1) h _ r).trans ?_
      have hp := ih (Nat.lt_of_succ_lt h) r
      refine (congrArg (· + ∑ c : Fin 512, term A (512 * ((n + 1) / 16) + r.val) (512 * ((n + 1) % 16) + c.val)) hp).trans ?_
      have e1 : (n + 1) / 16 = n / 16 := by omega
      have e2 : (n + 1) % 16 = n % 16 + 1 := by omega
      rw [e1, e2, blk_sum _ (n % 16 + 1)]

/-! ## The closed form at the last column tile -/

/-- At the last column tile of row tile i the running sums are the denominators of rows 512·i … 512·i + 511. -/
theorem acc_closed (A : Vec Ideal S8192x256 .bf16) (n : ℕ) (h : n < grid0.N) (h15 : n % 16 = 15) (r : Fin 512) :
    accG (tileRow A) (tileCol A) n h (ix1 r)
      = Cert.Spec.den A ⟨512 * (n / 16) + r.val, by
          have := r.isLt; have hN : grid0.N = 256 := by decide
          omega⟩ := by
  have hx : 512 * (n / 16) + r.val < 8192 := by
    have := r.isLt; have hN : grid0.N = 256 := by decide
    omega
  rw [acc_inv, h15, Finset.sum_range]
  unfold Cert.Spec.den
  refine Finset.sum_congr rfl fun c _ => ?_
  unfold term
  by_cases e : 512 * (n / 16) + r.val = c.val
  · rw [if_pos e, if_pos (Fin.ext e)]
  · rw [if_neg e, if_neg (fun e' => e (congrArg Fin.val e'))]
    unfold Cert.Spec.gram
    refine congrArg (fun s => Ideal.exp (s * 2)) (Finset.sum_congr rfl fun k _ => ?_)
    rw [rowN_lt A _ hx k, rowN_lt A c.val c.isLt k]

end Cert.KernelIdeal.Val
end
-- ==== Proof.KValArr.lean ====
/-
  From the blocks the tiled evaluation writes back to the whole array of denominators.

  Write A for the matrix of normalised rows as the tiled evaluation finds it. At grid point t (row tile t / 16,
  column tile t % 16) the first window holds rows 512·(t / 16) … of A and the second rows 512·(t % 16) … of the
  same A, so the running sums the pipeline keeps are the running sums over A's row blocks. The block of running
  sums is written back at the last column tile of each row tile (t % 16 = 15), where it holds the denominators of
  the tile's 512 rows; it lands at rows 512·(t / 16) … of the result. Row i of the result is therefore written by
  point 16·(i / 512) + 15, every row is written, and the result ends holding row i's denominator at every i.
-/
import proofs.«126791_j28630251995607_1_alg».proof.Proof.KValAcc
import proofs.«126791_j28630251995607_1_alg».proof.Proof.KData
import Idealize.ShloMosaic.Lib.Pipeline.Value

noncomputable section

namespace Cert.KernelIdeal.Val

open Idealize.ShloMosaic Idealize.ShloMosaic.ValueIdx Cert.KernelIdeal Cert.KernelIdeal.Gen
open scoped BigOperators

open Cert.KernelIdeal.Hand (V iblk acc dats b0_eq b1_eq after_2)
open Idealize.ShloMosaic.TcCoe Idealize.SL.Sem
open Idealize.ShloMosaic.Pipeline (Dat)

variable (m : (ℓ : Loc nD τ sig) → Buf (Elt Ideal) ℓ) (ρ : Dev nD → PrngReg)

/-! ## The normalised matrix the tiles are cut from -/

/-- The matrix of normalised rows as the tiled evaluation finds it. -/
abbrev Amat (c : Dev nD) : Vec Ideal S8192x256 .bf16 := V m ρ c main_v9

/-- The block numbers over the grid: the first window follows the row tile, the second the column tile, the
    window of running sums the row tile. -/
theorem idx_facts : ∀ t : Fin cfg0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 1) = t.val / 16 :=
  (by decide +kernel : ∀ t : Fin grid0.N, _)

/-- The row-tile window's block at point t is row block t / 16 of the matrix. -/
theorem iblk0_eq (c : Dev nD) (t : Fin cfg0.N) :
    (iblk m ρ c 0 t : Vec Ideal S512x256 .bf16) = rowBlk (Amat m ρ c) (t.val / 16) := by
  obtain ⟨e0, e1, -, -, -⟩ := idx_facts t
  have hN : t.val < 256 := lt_of_lt_of_eq t.isLt (by decide)
  funext y
  have hy0 : (y 0).val < 512 := (y 0).isLt
  unfold iblk
  rw [View.read_apply]
  show V m ρ c main_v9 (((cfg0.win 0).blk t).view.emb y)
    = V m ρ c main_v9 (ix2 (⟨(512 * (t.val / 16) + (y 0).val) % 8192, Nat.mod_lt _ (by decide)⟩ : Fin 8192) (⟨(y 1).val, (y 1).isLt⟩ : Fin 256))
  refine congrArg (V m ρ c main_v9) ?_
  funext a
  apply Fin.ext
  match a with
  | ⟨0, _⟩ => show win0_0.index t 0 * 512 + 1 * (y 0).val = (512 * (t.val / 16) + (y 0).val) % 8192; rw [e0]; omega
  | ⟨1, _⟩ => show win0_0.index t 1 * 256 + 1 * (y 1).val = (y 1).val; rw [e1]; omega

/-- The column-tile window's block at point t is row block t % 16 of the same matrix. -/
theorem iblk1_eq (c : Dev nD) (t : Fin cfg0.N) :
    (iblk m ρ c 1 t : Vec Ideal S512x256 .bf16) = rowBlk (Amat m ρ c) (t.val % 16) := by
  obtain ⟨-, -, e0, e1, -⟩ := idx_facts t
  funext y
  have hy0 : (y 0).val < 512 := (y 0).isLt
  unfold iblk
  rw [View.read_apply]
  show V m ρ c main_v9 (((cfg0.win 1).blk t).view.emb y)
    = V m ρ c main_v9 (ix2 (⟨(512 * (t.val % 16) + (y 0).val) % 8192, Nat.mod_lt _ (by decide)⟩ : Fin 8192) (⟨(y 1).val, (y 1).isLt⟩ : Fin 256))
  refine congrArg (V m ρ c main_v9) ?_
  funext a
  apply Fin.ext
  match a with
  | ⟨0, _⟩ => show win0_1.index t 0 * 512 + 1 * (y 0).val = (512 * (t.val % 16) + (y 0).val) % 8192; rw [e0]; omega
  | ⟨1, _⟩ => show win0_1.index t 1 * 256 + 1 * (y 1).val = (y 1).val; rw [e1]; omega

/-! ## The running sums over those blocks -/

/-- The running sums depend only on the operands at the points up to the one asked. -/
theorem accG_congr {F : FTy → Type} [FloatOps F] (p0 p1 q0 q1 : ℕ → Vec F S512x256 .bf16) :
    ∀ (n : ℕ) (h : n < grid0.N), (∀ k, k ≤ n → p0 k = q0 k) → (∀ k, k ≤ n → p1 k = q1 k) →
      Hand.accG p0 p1 n h = Hand.accG q0 q1 n h := by
  intro n
  induction n with
  | zero =>
    intro h e0 e1
    rw [Hand.accG_reset _ _ 0 h rfl, Hand.accG_reset _ _ 0 h rfl, e0 0 le_rfl, e1 0 le_rfl]
  | succ n ih =>
    intro h e0 e1
    by_cases h0 : (n + 1) % 16 = 0
    · rw [Hand.accG_reset _ _ _ h h0, Hand.accG_reset _ _ _ h h0, e0 _ le_rfl, e1 _ le_rfl]
    · rw [Hand.accG_step _ _ _ h h0, Hand.accG_step _ _ _ h h0, e0 _ le_rfl, e1 _ le_rfl]
      exact congrArg (k0_pay2 (grid0.coords ⟨n + 1, h⟩) (q0 (n + 1)) (q1 (n + 1)))
        (ih (Nat.lt_of_succ_lt h) (fun k hk => e0 k (Nat.le_succ_of_le hk)) (fun k hk => e1 k (Nat.le_succ_of_le hk)))

/-- The running sums the pipeline keeps are those over the matrix's row blocks. -/
theorem acc_eq (c : Dev nD) (t : Fin cfg0.N) :
    acc m ρ c t = Hand.accG (tileRow (Amat m ρ c)) (tileCol (Amat m ρ c)) t.val t.isLt := by
  unfold acc
  refine accG_congr _ _ _ _ t.val t.isLt (fun k hk => ?_) (fun k hk => ?_)
  · have hk' : k < cfg0.N := lt_of_le_of_lt hk t.isLt
    exact (b0_eq m ρ c ⟨k, hk'⟩).trans (iblk0_eq m ρ c ⟨k, hk'⟩)
  · have hk' : k < cfg0.N := lt_of_le_of_lt hk t.isLt
    exact (b1_eq m ρ c ⟨k, hk'⟩).trans (iblk1_eq m ρ c ⟨k, hk'⟩)

/-! ## From the blocks written back to the whole array -/

/-- What a row tile's last point writes back is that tile's block of the denominators. -/
theorem flushed_eq (c : Dev nD) (t : Fin cfg0.N) (hf : (cfg0.win 2).flush t = true) :
    (dats m ρ 0 c).flushed 2 t = ((cfg0.win 2).blk t).view.read (Elt Ideal) (Cert.Spec.denVec (Amat m ρ c)) := by
  have h15 : t.val % 16 = 15 := (flush0_2 t).mp hf
  obtain ⟨-, -, -, -, e2⟩ := idx_facts t
  show (cfg0.win 2).cut (grid0.coords t) ((dats m ρ 0 c).after 2 t) = _
  rw [after_2, acc_eq]
  funext y
  rw [View.read_apply]
  have hy0 : (y 0).val < 512 := (y 0).isLt
  have ey : (cfg0.win 2).xinj (grid0.coords t) y = ix1 (⟨(y 0).val, hy0⟩ : Fin 512) :=
    funext fun a => by match a with | ⟨0, _⟩ => rfl
  show Hand.accG (tileRow (Amat m ρ c)) (tileCol (Amat m ρ c)) t.val t.isLt ((cfg0.win 2).xinj (grid0.coords t) y)
    = Cert.Spec.den (Amat m ρ c) ((((cfg0.win 2).blk t).view.emb y) 0)
  rw [ey, acc_closed (Amat m ρ c) t.val t.isLt h15 ⟨(y 0).val, hy0⟩]
  refine congrArg (Cert.Spec.den (Amat m ρ c)) (Fin.ext ?_)
  show 512 * (t.val / 16) + (y 0).val = win0_2.index t 0 * 512 + 1 * (y 0).val
  rw [e2]; omega

/-- An index of the array of denominators lies in point t's block iff it is in the block's range. -/
theorem mem_blk2 (t : Fin cfg0.N) (i : S8192.Idx) :
    i ∈ ((cfg0.win 2).blk t).view.set ↔ ∀ a : Fin 1, win0_2.index t a * S512.size a ≤ (i a).val ∧ (i a).val < win0_2.index t a * S512.size a + S512.size a := by
  show i ∈ ((View.whole main_v10).slice (win0_2.rect t)).set ↔ _
  rw [View.set_slice_whole, Rect.mem_set_unit]
  exact Iff.rfl

/-- Row i of the result is written back by the last point of row tile i / 512. -/
theorem cover (i : S8192.Idx) : ∃ t : Fin cfg0.N, (cfg0.win 2).flush t = true ∧ i ∈ ((cfg0.win 2).blk t).view.set := by
  have hi : (i 0).val < 8192 := (i 0).isLt
  have hN : cfg0.N = 256 := by decide
  refine ⟨⟨16 * ((i 0).val / 512) + 15, by rw [hN]; omega⟩, (flush0_2 _).mpr (by show (16 * ((i 0).val / 512) + 15) % 16 = 15; omega), ?_⟩
  rw [mem_blk2]
  intro a
  obtain ⟨-, -, -, -, e2⟩ := idx_facts ⟨16 * ((i 0).val / 512) + 15, by rw [hN]; omega⟩
  match a with
  | ⟨0, _⟩ =>
    show win0_2.index _ 0 * 512 ≤ (i 0).val ∧ (i 0).val < win0_2.index _ 0 * 512 + 512
    rw [e2]
    show (16 * ((i 0).val / 512) + 15) / 16 * 512 ≤ (i 0).val ∧ (i 0).val < (16 * ((i 0).val / 512) + 15) / 16 * 512 + 512
    omega

/-- After the run the array of denominators holds, row by row, the masked sums of exponentials of the matrix. -/
theorem outArr_eq (c : Dev nD) : (dats (F := Ideal) m ρ 0 c).arrAt 2 cfg0.N = Cert.Spec.denVec (V m ρ c main_v9) :=
  (dats m ρ 0 c).arrAt_eq_of_cover 2 (Cert.Spec.denVec (Amat m ρ c)) (flushed_eq m ρ c) cover

end Cert.KernelIdeal.Val
end
-- ==== Proof.KValEnd.lean ====
/-
  The tiled program's result as one function of the two inputs.

  The operations after the tiled evaluation read three buffers: the two inputs, which nothing before them writes, and
  the buffer of denominators, which the tiled evaluation left holding, for each of the 8192 rows, the masked sum of
  exponentials of the matrix of normalised rows. That matrix is the stacked inputs normalised row by row. So the
  result is: minus the mean, over the rows, of the positive over one half less the logarithm of the denominator.
-/
import proofs.«126791_j28630251995607_1_alg».proof.Proof.KRun
import proofs.«126791_j28630251995607_1_alg».proof.Proof.KValHost
import proofs.«126791_j28630251995607_1_alg».proof.Proof.KValArr

noncomputable section

namespace Cert.KernelIdeal.Val

open Idealize.ShloMosaic Idealize.ShloMosaic.TcCoe Idealize.SL.Sem Idealize.ShloMosaic.StableHlo Cert.KernelIdeal Cert.KernelIdeal.Gen
open Cert.KernelIdeal.Hand (V V₀ dats outArr V1 V1_v10 V1_of_ne)

variable (m : (ℓ : Loc nD τ sig) → Buf (Elt Ideal) ℓ) (ρ : Dev nD → PrngReg)

/-- The two inputs reach the operations after the tiled evaluation as launched: nothing before them writes either. -/
theorem end_arg0 (c : Dev nD) : V1 m ρ c (Proc.devRef .tc main_arg0) = m ((c : Thread nD τ).loc main_arg0) :=
  (V1_of_ne m ρ c main_arg0 (by decide)).trans (pre_arg0 (V₀ m ρ c))
theorem end_arg1 (c : Dev nD) : V1 m ρ c (Proc.devRef .tc main_arg1) = m ((c : Thread nD τ).loc main_arg1) :=
  (V1_of_ne m ρ c main_arg1 (by decide)).trans (pre_arg1 (V₀ m ρ c))

/-- The matrix the tiles are cut from is the stacked inputs normalised row by row. -/
theorem end_v9 (c : Dev nD) :
    V m ρ c main_v9 = Cert.Terms.fnBf (F := Ideal) (m ((c : Thread nD τ).loc main_arg0)) (m ((c : Thread nD τ).loc main_arg1)) :=
  pre_v9 (V₀ m ρ c)

/-- The buffer of denominators, as the operations after the tiled evaluation find it, holds each row's masked sum of
    exponentials of that matrix. -/
theorem end_v10 (c : Dev nD) :
    V1 m ρ c (Proc.devRef .tc main_v10)
      = Cert.Spec.denVec (Cert.Terms.fnBf (F := Ideal) (m ((c : Thread nD τ).loc main_arg0)) (m ((c : Thread nD τ).loc main_arg1))) :=
  (V1_v10 m ρ c).trans ((outArr_eq m ρ c).trans (congrArg Cert.Spec.denVec (end_v9 m ρ c)))

/-- The whole program's result: minus the mean of the positives over one half less the logarithm of the denominators. -/
theorem kernel_result (c : Dev nD) :
    StableHlo.after (hostOps1 (F := Ideal)) (V1 m ρ c) (Proc.devRef .tc main_v36)
      = Cert.Terms.tailSub (F := Ideal)
          (Cert.Terms.pos (F := Ideal) (m ((c : Thread nD τ).loc main_arg0)) (m ((c : Thread nD τ).loc main_arg1)))
          (Cert.Spec.denVec (Cert.Terms.fnBf (F := Ideal) (m ((c : Thread nD τ).loc main_arg0)) (m ((c : Thread nD τ).loc main_arg1)))) := by
  rw [tail_v36 (V1 m ρ c), end_arg0, end_arg1, end_v10]

end Cert.KernelIdeal.Val
end
-- ==== Proof.AlgConsts.lean ====
/-
  The float literals the two programs spell, as the extended reals their bit patterns denote.

  `0x3F000000` is one half (the temperature), so dividing by it doubles: `x / ½ = x · 2` for every
  extended real `x`, the infinities included, since division by a nonzero real is multiplication by
  its reciprocal. `0x7F800000` is `+∞`. `0x322BCC77` is the float nearest `1e-8`, the dyadic
  rational `11258999 / 2⁵⁰`, a positive real.
-/
import Idealize.ShloMosaic.PureOps.Ideal
import Idealize.ShloMosaic.PureOps.Ideal.Laws

noncomputable section

namespace Cert.Alg

open Idealize.ShloMosaic

/-- The pattern `0x3F000000` denotes one half. -/
theorem ofBits_half : Ideal.ofBits .f32 0x3F000000#32 = (((1 : ℝ) / 2 : ℝ) : EReal) := by
  simp [Ideal.ofBits, Ideal.ieee, -EReal.coe_mul]; norm_num

/-- The pattern `0x7F800000` denotes `+∞`. -/
theorem ofBits_inf : Ideal.ofBits .f32 0x7F800000#32 = ⊤ := by
  simp [Ideal.ofBits, Ideal.ieee]

/-- The pattern `0x322BCC77` denotes `11258999 / 2⁵⁰`. -/
theorem ofBits_eps : Ideal.ofBits .f32 0x322BCC77#32 = (((11258999 : ℝ) / 2 ^ 50 : ℝ) : EReal) := by
  simp [Ideal.ofBits, Ideal.ieee, -EReal.coe_mul]; norm_num

/-- The clamp constant is a positive real. -/
theorem eps_pos : ∃ e : ℝ, 0 < e ∧ Ideal.ofBits .f32 0x322BCC77#32 = (e : EReal) :=
  ⟨(11258999 : ℝ) / 2 ^ 50, by positivity, ofBits_eps⟩

/-- Dividing by one half doubles, on every extended real. -/
theorem div_half (x : EReal) : Ideal.div x (Ideal.ofBits .f32 0x3F000000#32) = x * 2 := by
  rw [ofBits_half, Ideal.div_coe (by norm_num)]
  congr 1
  norm_num
  rfl

end Cert.Alg

end
-- ==== Proof.RefValDen.lean ====
/-
  The reference's denominators are the masked row sums of exponentials of the normalised matrix.

  The reference forms the full 8192 × 8192 matrix of Gram entries of the normalised rows `A`, divides each
  by one half, exponentiates, replaces the entries where the row number equals the column number by zero,
  and sums each row from a zero start. Entry `(r, c)` of the product of `A` with its transpose is
  `∑ k, A r k · A c k`; division by one half is doubling; the row and column numbers are below 8192, so as
  32-bit words they are equal exactly when the numbers are. Hence row `r`'s sum is
  `∑ c, if r = c then 0 else exp (2 · ∑ k, A r k · A c k)`.
-/
import proofs.«126791_j28630251995607_1_alg».proof.Proof.Gen.ReferenceIdeal.Run
import proofs.«126791_j28630251995607_1_alg».proof.Proof.Gen.ReferenceIdeal.Read
import proofs.«126791_j28630251995607_1_alg».proof.Proof.Spec
import proofs.«126791_j28630251995607_1_alg».proof.Proof.AlgConsts
import Idealize.ShloMosaic.Lib.Affine
import Idealize.ShloMosaic.Lib.ValueIdx
import Idealize.ShloMosaic.PureOps.Ideal.Laws

noncomputable section

namespace Cert.RefSide

open Idealize.ShloMosaic Idealize.ShloMosaic.ValueIdx Cert.ReferenceIdeal Cert.ReferenceIdeal.Read
open scoped BigOperators

/-- Row and column numbers below 8192, as 32-bit words with a zero word added to the first, are equal
    words exactly when they are equal numbers. -/
theorem diag_bit (r c : Fin 8192) :
    IntOp.cmpi .eq (IntOp.addi (BitVec.ofNat 32 r.val) 0#32) (BitVec.ofNat 32 c.val) = 1#1 ↔ r = c := by
  rw [IntOp.cmpi_eq]
  show BitVec.ofNat 32 r.val + 0#32 = BitVec.ofNat 32 c.val ↔ r = c
  rw [BitVec.add_zero]
  constructor
  · intro h
    have h' := congrArg BitVec.toNat h
    simp only [BitVec.toNat_ofNat] at h'
    have hr := r.isLt
    have hc := c.isLt
    exact Fin.ext (by omega)
  · rintro rfl
    rfl

/-- The masked exponential matrix at row `r`, column `c`. -/
theorem masked_at (x0 x1 : FVec Ideal S4096x256 .f32) (r c : Fin 8192) :
    val_main_v19 (F := Ideal) x0 x1 (idx_main_v20 (ix1 r) c) =
      if r = c then (0 : EReal) else Ideal.exp (Cert.Spec.gram (val_main_v8 (F := Ideal) x0 x1) r c * 2) := by
  have hbit : val_main_v15 (F := Ideal) (idx_main_v20 (ix1 r) c) =
      IntOp.cmpi .eq (IntOp.addi (BitVec.ofNat 32 r.val) 0#32) (BitVec.ofNat 32 c.val) := rfl
  have hzero : val_main_call0_v1 (F := Ideal) (idx_main_v20 (ix1 r) c) = Ideal.ofBits .f32 0x00000000#32 := rfl
  have hexp : val_main_v18 (F := Ideal) x0 x1 (idx_main_v20 (ix1 r) c) =
      Ideal.exp (Ideal.div (val_main_v10 (F := Ideal) x0 x1 (idx_main_v20 (ix1 r) c)) (Ideal.ofBits .f32 0x3F000000#32)) := rfl
  rw [val_main_v19_apply, hbit, hzero, hexp]
  by_cases h : r = c
  · rw [if_pos h, (diag_bit r c).2 h, select_one, Ideal.ofBits_zero_f32]
  · have hb : IntOp.cmpi .eq (IntOp.addi (BitVec.ofNat 32 r.val) 0#32) (BitVec.ofNat 32 c.val) = 0#1 :=
      eq_zero_of_ne_one (fun e => h ((diag_bit r c).1 e))
    rw [if_neg h, hb, select_zero, Cert.Alg.div_half, val_main_v10_apply]
    refine congrArg (fun s => Ideal.exp (s * 2)) ?_
    unfold Cert.Spec.gram
    refine Finset.sum_congr rfl fun k _ => ?_
    rw [val_main_v9_apply]
    have el : lidx_main_v10 (idx_main_v20 (ix1 r) c) k = ix2 r k :=
      funext fun a => Fin.ext (by match a with | ⟨0, _⟩ => rfl | ⟨1, _⟩ => rfl)
    have er : idx_main_v9 (ridx_main_v10 (idx_main_v20 (ix1 r) c) k) = ix2 c k :=
      funext fun a => Fin.ext (by match a with | ⟨0, _⟩ => rfl | ⟨1, _⟩ => rfl)
    rw [el, er]

/-- The reference's denominators are the specification's, of the reference's normalised matrix. -/
theorem den_eq (x0 x1 : FVec Ideal S4096x256 .f32) :
    val_main_v20 (F := Ideal) x0 x1 = Cert.Spec.denVec (val_main_v8 (F := Ideal) x0 x1) := by
  funext i
  obtain ⟨r, rfl⟩ : ∃ r : Fin 8192, i = ix1 r := ⟨i 0, eq_ix1 i⟩
  rw [val_main_v20_apply]
  have hinit : ∀ j, val_main_cst_3 (F := Ideal) j = 0 := fun _ => Ideal.ofBits_zero_f32
  rw [hinit, zero_add]
  show _ = Cert.Spec.den _ r
  unfold Cert.Spec.den
  exact Finset.sum_congr rfl fun c _ => masked_at x0 x1 r c

end Cert.RefSide

end
-- ==== Proof.RefVal.lean ====
/-
  The reference's result as the shared terms.

  The reference stacks the two inputs, normalises the 8192 rows (that is the shared normalised matrix),
  forms its denominators (the specification's masked row sums, by the previous module), forms the positives
  from the separately normalised inputs (the shared positives), and finishes with
  `-mean (log (exp (P / ½) / D))` (the shared logarithmic tail). The first, third and fourth identifications
  hold by unfolding: the two texts spell the same operation chain over the same literal shapes.
-/
import proofs.«126791_j28630251995607_1_alg».proof.Proof.Gen.ReferenceIdeal.Run
import proofs.«126791_j28630251995607_1_alg».proof.Proof.Gen.ReferenceIdeal.Read
import proofs.«126791_j28630251995607_1_alg».proof.Proof.Spec
import proofs.«126791_j28630251995607_1_alg».proof.Proof.Terms
import proofs.«126791_j28630251995607_1_alg».proof.Proof.RefValDen

noncomputable section

namespace Cert.RefSide

open Idealize.ShloMosaic Idealize.SL.Sem Cert.ReferenceIdeal Cert.ReferenceIdeal.Read

/-- The reference's normalised matrix is the shared one. -/
theorem fn_eq (x0 x1 : FVec Ideal S4096x256 .f32) :
    val_main_v8 (F := Ideal) x0 x1 = Cert.Terms.fn32 (F := Ideal) x0 x1 := rfl

/-- The reference's last stage is the logarithmic tail of the shared positives and its own denominators. -/
theorem tail_eq (x0 x1 : FVec Ideal S4096x256 .f32) :
    val_main_v47 (F := Ideal) x0 x1 =
      Cert.Terms.tailLog (F := Ideal) (Cert.Terms.pos (F := Ideal) x0 x1) (val_main_v20 (F := Ideal) x0 x1) := rfl

/-- The reference's result, as a function of the two argument arrays. -/
theorem ref_value (x0 x1 : FVec Ideal S4096x256 .f32) :
    val_main_v47 (F := Ideal) x0 x1 =
      Cert.Terms.tailLog (F := Ideal) (Cert.Terms.pos (F := Ideal) x0 x1)
        (Cert.Spec.denVec (Cert.Terms.fn32 (F := Ideal) x0 x1)) := by
  rw [tail_eq, den_eq, fn_eq]

/-- The term the reference's run ends with, as the shared terms of the two argument arrays. -/
theorem ref_result (m : (ℓ : Loc nD τ sig) → Buf (Elt Ideal) ℓ) (c : Dev nD) :
    Cert.ReferenceIdeal.Value.res_main_v47 (F := Ideal) m c =
      Cert.Terms.tailLog (F := Ideal)
        (Cert.Terms.pos (F := Ideal) (m ((c.tc : Thread nD τ).loc main_arg0)) (m ((c.tc : Thread nD τ).loc main_arg1)))
        (Cert.Spec.denVec (Cert.Terms.fn32 (F := Ideal) (m ((c.tc : Thread nD τ).loc main_arg0))
          (m ((c.tc : Thread nD τ).loc main_arg1)))) :=
  (val_main_v47_eq m c).trans (ref_value _ _)

end Cert.RefSide

end
-- ==== Proof.Alg.lean ====
/-
  Facts about extended reals used to compare the two ways of finishing the loss.

  1. The logarithm of a quotient. For a positive real denominator `x` and ANY extended real `a`,
     `log (exp a / x) = a - log x`. For real `a` it is the usual rule `log (eᵃ / x) = a - log x`.
     For `a = -∞` the exponential is `0`, the quotient `0`, its logarithm `-∞`, and `-∞ - log x = -∞`.
     For `a = +∞` the exponential is `+∞`, the quotient by a positive real is `+∞`, its logarithm
     `+∞`, and `+∞ - log x = +∞`.

  2. The masked row sum of exponentials of a real matrix is a positive real. Each Gram entry of a real
     matrix is a finite sum of products of reals, so a real; the row sum has 8192 terms, each either
     zero (the diagonal one) or the exponential of a real, which is positive; at least one term is off
     the diagonal, so the sum is positive. The embedding of the reals in the extended reals commutes
     with finite sums, which is proved first by induction on the index set.
-/
import Idealize.ShloMosaic.PureOps.Ideal
import Idealize.ShloMosaic.Lib.ValueIdx
import proofs.«126791_j28630251995607_1_alg».proof.Proof.Spec

noncomputable section

namespace Cert.Alg

open Idealize.ShloMosaic Idealize.ShloMosaic.ValueIdx
open scoped BigOperators

/-- The embedding of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `log (exp a / d) = a - log d` for a positive real `d` and every extended real `a`. -/
theorem log_exp_div (a d : EReal) (x : ℝ) (hx : 0 < x) (hd : d = (x : EReal)) :
    Ideal.log (Ideal.div (Ideal.exp a) d) = a - Ideal.log d := by
  subst hd
  have hx0 : x ≠ 0 := hx.ne'
  have hinv : (0 : ℝ) < 1 / x := by positivity
  have hlogx : Ideal.log (x : EReal) = (Real.log x : EReal) := by
    rw [Ideal.log_coe, if_neg (not_le.mpr hx)]
  rw [Ideal.div_coe hx0, hlogx]
  induction a using EReal.rec with
  | bot =>
    rw [Ideal.exp_bot, zero_mul, ← EReal.coe_zero, Ideal.log_coe, if_pos le_rfl, EReal.bot_sub]
  | top =>
    rw [Ideal.exp_top, EReal.top_mul_coe_of_pos hinv, Ideal.log_top, EReal.top_sub_coe]
  | coe r =>
    have hpos : (0 : ℝ) < Real.exp r * (1 / x) := by positivity
    rw [Ideal.exp_coe, ← EReal.coe_mul, Ideal.log_coe, if_neg (not_le.mpr hpos), ← EReal.coe_sub]
    congr 1
    rw [mul_one_div, Real.log_div (Real.exp_pos r).ne' hx0, Real.log_exp]

/-- The masked row sum of exponentials of a real matrix is a positive real. -/
theorem den_pos (A : (⟨2, ![8192, 256]⟩ : Shape).Idx → EReal) (hA : ∀ j, ∃ x : ℝ, A j = (x : EReal))
    (r : Fin 8192) : ∃ x : ℝ, 0 < x ∧ Cert.Spec.den A r = (x : EReal) := by
  choose a ha using hA
  have hgram : ∀ c : Fin 8192, Cert.Spec.gram A r c = ((∑ k : Fin 256, a (ix2 r k) * a (ix2 c k) : ℝ) : EReal) := by
    intro c
    rw [Cert.Spec.gram, coe_sum]
    refine Finset.sum_congr rfl fun k _ => ?_
    rw [ha, ha, EReal.coe_mul]
  refine ⟨∑ c : Fin 8192, if r = c then (0 : ℝ) else Real.exp ((∑ k : Fin 256, a (ix2 r k) * a (ix2 c k)) * 2), ?_, ?_⟩
  · have hex : ∃ c : Fin 8192, r ≠ c := by
      by_cases h0 : r = 0
      · exact ⟨1, by rw [h0]; decide⟩
      · exact ⟨0, h0⟩
    obtain ⟨c, hc⟩ := hex
    refine Finset.sum_pos' (fun i _ => ?_) ⟨c, Finset.mem_univ c, ?_⟩
    · split
      · exact le_rfl
      · exact (Real.exp_pos _).le
    · rw [if_neg hc]; exact Real.exp_pos _
  · rw [Cert.Spec.den, coe_sum]
    refine Finset.sum_congr rfl fun c _ => ?_
    by_cases h : r = c
    · rw [if_pos h, if_pos h, EReal.coe_zero]
    · rw [if_neg h, if_neg h, hgram c]
      have h2 : ((2 : ℝ) : EReal) = 2 := rfl
      rw [← h2, ← EReal.coe_mul, Ideal.exp_coe]

end Cert.Alg

end
-- ==== Proof.Finite.lean ====
/-
  Finiteness: from the precondition on the inputs to the positivity of the denominators, and the
  agreement of the two ways of finishing the loss.

  1. The precondition says, for each input, that every entry `x` has `|x| < +∞`. On the extended
     reals `|x| = max x (-x)` is `+∞` at both infinities, so the entry is a real.
  2. Normalising a matrix of reals gives a matrix of reals. A row's sum of squares is a real `R`; its
     square root is a real (or the junk value `-∞` were `R` negative, which the maximum below absorbs);
     the maximum with the positive real `ε` is a positive real `y`; and a real divided by a nonzero real
     is a real. Stacking two real matrices gives a real matrix, since every entry of the stack is an entry
     of one of the two. A change of float format is the identity on extended reals.
  3. With positive real denominators `D`, `log (exp (P / ½) / D) = P / ½ - log D` entry by entry, whatever
     the array `P` is (nothing is assumed of it); the remaining operations (sum, division by the count, negation) are applied to
     equal arrays.
-/
import Idealize.ShloMosaic.PureOps.Ideal
import Idealize.ShloMosaic.PureOps.Ideal.Laws
import Idealize.ShloMosaic.Lib.ValueIdx
import Idealize.ShloMosaic.Lib.ReduceAll
import proofs.«126791_j28630251995607_1_alg».proof.Proof.Gen.Pre_finite_inputs
import proofs.«126791_j28630251995607_1_alg».proof.Proof.Terms
import proofs.«126791_j28630251995607_1_alg».proof.Proof.Alg
import proofs.«126791_j28630251995607_1_alg».proof.Proof.AlgConsts

noncomputable section

namespace Cert.Finite

open Idealize.ShloMosaic Idealize.ShloMosaic.ValueIdx Cert.Alg
open scoped BigOperators

/-! ## From the precondition to real entries -/

/-- An extended real whose absolute value is below `+∞` is a real. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

instance : Subsingleton Cert.Pre_finite_inputs.S_.Idx := ⟨fun _ _ => funext fun d => d.elim0⟩

/-- Under the precondition every entry of both inputs is a real. -/
theorem inputs_real (a0 a1 : FVec Ideal Cert.Pre_finite_inputs.S4096x256 .f32)
    (h : Cert.Pre_finite_inputs.fn (F := Ideal) a0 a1 = (fun _ => 1#1)) :
    (∀ j, ∃ x : ℝ, a0 j = (x : EReal)) ∧ (∀ j, ∃ x : ℝ, a1 j = (x : EReal)) := by
  have h0 := congrFun h ix0
  dsimp only [Cert.Pre_finite_inputs.fn] at h0
  obtain ⟨h1, h2⟩ := IntOp.andi_eq_one.1 h0
  exact ⟨fun j => real_of_abs_lt_inf _ (Host.reduce_andi_all _ _ _ _ _ h1 j),
    fun j => real_of_abs_lt_inf _ (Host.reduce_andi_all _ _ _ _ _ h2 j)⟩

/-! ## Normalisation keeps entries real -/

/-- A sum of squares of reals is a real. -/
theorem real_sum_sq {ι : Type*} (s : Finset ι) (f : ι → EReal) (hf : ∀ i, ∃ x : ℝ, f i = (x : EReal)) :
    ∃ x : ℝ, ∑ i ∈ s, f i * f i = (x : EReal) := by
  choose g hg using hf
  refine ⟨∑ i ∈ s, g i * g i, ?_⟩
  rw [coe_sum]
  exact Finset.sum_congr rfl fun i _ => by rw [hg, EReal.coe_mul]

/-- The clamped norm is a positive real: `max (√R) e` for a real `R` and a positive real `e`. -/
theorem clamp_pos (R e : ℝ) (he : 0 < e) :
    ∃ y : ℝ, 0 < y ∧ max (Ideal.sqrt (R : EReal)) (e : EReal) = (y : EReal) := by
  rw [Ideal.sqrt_coe]
  split_ifs with h
  · exact ⟨e, he, max_eq_right bot_le⟩
  · exact ⟨max (Real.sqrt R) e, lt_max_of_lt_right he, (EReal.coe_strictMono.monotone.map_max).symm⟩

/-- A real divided by a nonzero real is a real. -/
theorem div_real (x y : ℝ) (hy : y ≠ 0) : Ideal.div (x : EReal) (y : EReal) = ((x * (1 / y) : ℝ) : EReal) := by
  rw [Ideal.div_coe hy, ← EReal.coe_mul]

/-- Every entry of a stack of arrays is an entry of one of them. -/
theorem concat_all {α : Type} (P : α → Prop) {t : Shape} (a : Fin t.rank) (xs : List ((s : Shape) × (s.Idx → α)))
    (h : Shape.Concatenates (xs.map (·.1)) t a) (hP : ∀ p ∈ xs, ∀ i, P (p.2 i)) (j : t.Idx) :
    P (concatenate t a xs h j) := by
  unfold concatenate
  exact hP _ (List.getElem_mem _) _

/-- Row normalisation of a real matrix is a real matrix. -/
theorem norm8_real (f : FVec Ideal Cert.Terms.S8192x256 .f32) (hf : ∀ j, ∃ x : ℝ, f j = (x : EReal))
    (j : Cert.Terms.S8192x256.Idx) : ∃ x : ℝ, Cert.Terms.norm8 (F := Ideal) f j = (x : EReal) := by
  obtain ⟨s, hs⟩ : ∃ s : Finset Cert.Terms.S8192x256.Idx, Cert.Terms.norm8 (F := Ideal) f j =
      Ideal.div (f j) (max (Ideal.sqrt (Ideal.ofBits .f32 0x00000000#32 + ∑ i ∈ s, f i * f i))
        (Ideal.ofBits .f32 0x322BCC77#32)) := ⟨_, rfl⟩
  obtain ⟨R, hR⟩ := real_sum_sq s f hf
  obtain ⟨e, he, hE⟩ := eps_pos
  obtain ⟨x, hx⟩ := hf j
  obtain ⟨y, hy, hY⟩ := clamp_pos R e he
  rw [hs, Ideal.ofBits_zero_f32, zero_add, hR, hE, hY, hx, div_real x y hy.ne']
  exact ⟨_, rfl⟩

/-- The stacked and normalised inputs are real when the inputs are. -/
theorem fn32_real (a0 a1 : FVec Ideal Cert.Terms.S4096x256 .f32) (h0 : ∀ j, ∃ x : ℝ, a0 j = (x : EReal))
    (h1 : ∀ j, ∃ x : ℝ, a1 j = (x : EReal)) (j : Cert.Terms.S8192x256.Idx) :
    ∃ x : ℝ, Cert.Terms.fn32 (F := Ideal) a0 a1 j = (x : EReal) := by
  unfold Cert.Terms.fn32
  refine norm8_real _ (fun j => concat_all (fun v => ∃ x : ℝ, v = (x : EReal)) _ _ _ ?_ j) j
  intro p hp i
  simp only [List.mem_cons, List.mem_nil_iff, or_false] at hp
  rcases hp with rfl | rfl
  · exact h0 i
  · exact h1 i

/-- The change of float format is the identity on extended reals. -/
theorem fnBf_eq (a0 a1 : FVec Ideal Cert.Terms.S4096x256 .f32) (j : Cert.Terms.S8192x256.Idx) :
    Cert.Terms.fnBf (F := Ideal) a0 a1 j = Cert.Terms.fn32 (F := Ideal) a0 a1 j := rfl

/-- The same matrix in the narrower format is real too. -/
theorem fnBf_real (a0 a1 : FVec Ideal Cert.Terms.S4096x256 .f32) (h0 : ∀ j, ∃ x : ℝ, a0 j = (x : EReal))
    (h1 : ∀ j, ∃ x : ℝ, a1 j = (x : EReal)) (j : Cert.Terms.S8192x256.Idx) :
    ∃ x : ℝ, Cert.Terms.fnBf (F := Ideal) a0 a1 j = (x : EReal) :=
  fn32_real a0 a1 h0 h1 j

/-! ## The two tails agree on positive real denominators -/

/-- `-mean (log (exp (P / ½) / D)) = -mean (P / ½ - log D)` when every denominator is a positive real. -/
theorem tails_agree (P D : FVec Ideal Cert.Terms.S8192 .f32) (hD : ∀ j, ∃ x : ℝ, 0 < x ∧ D j = (x : EReal)) :
    Cert.Terms.tailLog (F := Ideal) P D = Cert.Terms.tailSub (F := Ideal) P D := by
  have inner : ∀ Q : FVec Ideal Cert.Terms.S8192 .f32,
      Host.log (F := Ideal) (Host.divf (Host.exp Q) D) = subf Q (Host.log (F := Ideal) D) := by
    intro Q
    funext j
    obtain ⟨x, hx, hd⟩ := hD j
    exact log_exp_div (Q j) (D j) x hx hd
  unfold Cert.Terms.tailLog Cert.Terms.tailSub
  rw [inner]

end Cert.Finite

end
-- ==== Proof.AlgClose.lean ====
/-
  The closing step under the precondition: with finite inputs the two ways of finishing the loss agree at
  the specification's denominators.

  Finite inputs are real matrices; their normalisation is a real matrix; the masked row sums of
  exponentials of a real matrix are positive reals; and on positive real denominators
  `log (exp (P / ½) / D) = P / ½ - log D`. The matrix read in the narrower float format is the same
  matrix of extended reals, so its denominators are the same.
-/
import proofs.«126791_j28630251995607_1_alg».proof.Proof.Spec
import proofs.«126791_j28630251995607_1_alg».proof.Proof.Terms
import proofs.«126791_j28630251995607_1_alg».proof.Proof.Alg
import proofs.«126791_j28630251995607_1_alg».proof.Proof.Finite

noncomputable section

namespace Cert.Alg

open Idealize.ShloMosaic

/-- The denominators of the normalised inputs are positive reals when the inputs are finite. -/
theorem den_fn32_pos (a0 a1 : FVec Ideal Cert.Terms.S4096x256 .f32)
    (h : Cert.Pre_finite_inputs.fn (F := Ideal) a0 a1 = (fun _ => 1#1)) (j : Cert.Terms.S8192.Idx) :
    ∃ x : ℝ, 0 < x ∧ Cert.Spec.denVec (Cert.Terms.fn32 (F := Ideal) a0 a1) j = (x : EReal) :=
  den_pos _ (Cert.Finite.fn32_real a0 a1 (Cert.Finite.inputs_real a0 a1 h).1 (Cert.Finite.inputs_real a0 a1 h).2) (j 0)

/-- The denominators of the matrix read in the narrower format are those of the matrix itself. -/
theorem denVec_fnBf (a0 a1 : FVec Ideal Cert.Terms.S4096x256 .f32) :
    Cert.Spec.denVec (Cert.Terms.fnBf (F := Ideal) a0 a1) = Cert.Spec.denVec (Cert.Terms.fn32 (F := Ideal) a0 a1) := rfl

/-- Under the precondition the subtractive and the logarithmic tails agree at the specification's denominators. -/
theorem tails_close (a0 a1 : FVec Ideal Cert.Terms.S4096x256 .f32)
    (h : Cert.Pre_finite_inputs.fn (F := Ideal) a0 a1 = (fun _ => 1#1)) :
    Cert.Terms.tailSub (F := Ideal) (Cert.Terms.pos (F := Ideal) a0 a1) (Cert.Spec.denVec (Cert.Terms.fn32 (F := Ideal) a0 a1)) =
      Cert.Terms.tailLog (F := Ideal) (Cert.Terms.pos (F := Ideal) a0 a1) (Cert.Spec.denVec (Cert.Terms.fn32 (F := Ideal) a0 a1)) :=
  (Cert.Finite.tails_agree _ _ (den_fn32_pos a0 a1 h)).symm

end Cert.Alg

end
-- ==== Proof.Claims.lean ====
/-
  The five claims.

  Frames: each program's run, read with its result dropped, says that the run terminates and leaves the two
  input arrays as they were. The tiled program at the word level and at the extended reals share one run
  statement (the result's buffer at what the closing host operations compute from the row sums the tiled
  region left; both inputs unchanged); the untiled program has its generated run.

  The idealised tiled program is the word-level program's own text read at the extended reals: no operation was
  rewritten, so there is nothing to preserve beyond that.

  Equality at the extended reals. Write `a0`, `a1` for the two inputs, `A` for the 8192 stacked rows
  normalised, `P` for the positives and `D r = ∑_{c ≠ r} exp (2 · ⟨A r, A c⟩)` for the denominators. The tiled
  program ends with `-mean (P / ½ - log D)`, its denominators accumulated tile by tile from the matrix read
  in a narrower float format, which is the same matrix of extended reals. The untiled program ends with
  `-mean (log (exp (P / ½) / D))`. For finite inputs every `D r` is a positive real, and then
  `log (exp x / d) = x - log d` for every extended real `x`; so the two results are one value, the common
  witness of both runs.
-/
import proofs.«126791_j28630251995607_1_alg».proof.Defs
import proofs.«126791_j28630251995607_1_alg».proof.Proof.Gen.Kernel
import proofs.«126791_j28630251995607_1_alg».proof.Proof.Gen.KernelIdeal
import proofs.«126791_j28630251995607_1_alg».proof.Proof.Gen.ReferenceIdeal
import proofs.«126791_j28630251995607_1_alg».proof.Proof.Gen.Pre_finite_inputs
import proofs.«126791_j28630251995607_1_alg».proof.Proof.Gen.ReferenceIdeal.Run
import proofs.«126791_j28630251995607_1_alg».proof.Proof.BRun
import proofs.«126791_j28630251995607_1_alg».proof.Proof.KRun
import proofs.«126791_j28630251995607_1_alg».proof.Proof.KValEnd
import proofs.«126791_j28630251995607_1_alg».proof.Proof.RefVal
import proofs.«126791_j28630251995607_1_alg».proof.Proof.AlgClose

noncomputable section

namespace Cert.Proof.Claims

open Idealize.ShloMosaic Idealize.ShloMosaic.TcCoe Idealize.SL.Sem

/-- The word-level tiled program runs and leaves its inputs unchanged. -/
theorem frame_k : Cert.frame_Kernel := fun m ρ _ =>
  (θ_run Cert.Kernel.defs _ _).mono (fun _ h c => ⟨(h c).2.1, (h c).2.2⟩) (Cert.Kernel.Hand.run_main (F := Bits) m ρ)

/-- So does the tiled program at the extended reals. -/
theorem frame_ki : Cert.frame_KernelIdeal := fun m ρ _ =>
  (θ_run Cert.KernelIdeal.defs _ _).mono (fun _ h c => ⟨(h c).2.1, (h c).2.2⟩) (Cert.KernelIdeal.Hand.run_main (F := Ideal) m ρ)

/-- So does the untiled program. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten between the word-level text and its reading at the extended reals. -/
theorem preserves : Cert.preserves_Kernel_KernelIdeal := trivial

/-- From finite inputs that agree, both programs end at `-mean (log (exp (P / ½) / D))` of the shared positives
    and the specification's denominators. -/
theorem algebraic : Cert.algebraic_KernelIdeal_ReferenceIdeal := by
  intro m ρ m' ρ' hpre hagree
  refine ⟨fun c => Cert.Terms.tailLog (F := Ideal)
      (Cert.Terms.pos (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (Cert.Spec.denVec (Cert.Terms.fn32 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))), ?_, ?_⟩
  · refine (θ_run Cert.KernelIdeal.defs _ _).mono (fun _ h c => ⟨(h c).1.trans ?_, (h c).2⟩)
      (Cert.KernelIdeal.Hand.run_main (F := Ideal) m ρ)
    rw [Cert.KernelIdeal.Val.kernel_result m ρ c, Cert.Alg.denVec_fnBf]
    exact Cert.Alg.tails_close _ _ (hpre c)
  · refine (θ_run Cert.ReferenceIdeal.defs _ _).mono (fun _ h c => ⟨(h c).1.trans ?_, (h c).2⟩)
      (Cert.ReferenceIdeal.Value.run (F := Ideal) m' ρ')
    rw [Cert.RefSide.ref_result m' c, (hagree c).1, (hagree c).2]

end Cert.Proof.Claims

end
-- ==== Proof.lean ====
/-
  A contrastive loss over 4096 pairs of rows, evaluated in tiles, against its plain array form.

  The two inputs are stacked into 8192 rows of 256 features and every row is divided by the larger of its
  Euclidean norm and 1e-8. With `sim r c` the inner product of normalised rows `r` and `c`, the denominator of
  row `r` is `∑_{c ≠ r} exp (2 · sim r c)`, and the loss is minus the mean over the rows of
  `2 · pos r − log (den r)`, where `pos r` is the inner product of the two normalised rows of pair `r mod 4096`.

  One program computes the denominators tile by tile: a 16 × 16 grid of 512 × 512 tiles of the similarity matrix,
  each tile's entries doubled, exponentiated, the global diagonal replaced by zero and summed along its columns
  into 512 running row sums, which are reset at the first column tile of a row tile and written back after the
  last; it then finishes with `2 · pos − log den`. The other forms the whole 8192 × 8192 matrix, masks its diagonal,
  sums each row at once and finishes with `log (exp (2 · pos) / den)`.

  Read over the extended reals the two agree whenever the inputs are finite. The denominators are the same
  function of the normalised matrix with no assumption at all: addition of extended reals is commutative and
  associative, so sixteen partial sums of 512 columns are the sum over 8192 columns, and doubling is dividing by
  one half. The two ways of finishing agree because each denominator is then a positive real — a sum of 8191
  exponentials of reals and one zero —, for which `log (exp a / d) = a − log d` at every extended real `a`.

  The modules: `Spec` and `Terms` state the denominators and the shared array operations once; `KAcc`, `KData`,
  `KBody`, `KKeep`, `KRun` prove that the tiled program runs to the end without a fault, leaves its arguments
  unchanged and leaves the result at the second host stretch's value of the row sums the tiles accumulated
  (`BAcc` … `BRun`: the same for the program as printed, at the word level); `KValPay`, `KValHost`, `KValAcc`,
  `KValArr`, `KValEnd` read those row sums and the host stretches as values; `RefValDen`, `RefVal` do the same
  for the plain array form; `Alg`, `AlgConsts`, `Finite`, `AlgClose` hold the extended-real facts and the
  finiteness of the normalised matrix; `Claims` assembles the five conjuncts.
-/
import proofs.«126791_j28630251995607_1_alg».proof.Defs
import proofs.«126791_j28630251995607_1_alg».proof.Proof.Gen.Kernel
import proofs.«126791_j28630251995607_1_alg».proof.Proof.Gen.KernelIdeal
import proofs.«126791_j28630251995607_1_alg».proof.Proof.Gen.ReferenceIdeal
import proofs.«126791_j28630251995607_1_alg».proof.Proof.Gen.Pre_finite_inputs
import proofs.«126791_j28630251995607_1_alg».proof.Proof.Claims

noncomputable section

namespace Cert.Proof

/-- The certificate's claim: the side conditions the three programs and the precondition state, then the three
    frames, the idealization's (empty) ledger, and the equality of the two results over the extended reals. -/
theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
